-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S16x128 : Shape := ⟨2, ![16, 128]⟩
abbrev S100000x1 : Shape := ⟨2, ![100000, 1]⟩
abbrev S16 : Shape := ⟨1, ![16]⟩
abbrev S16x1 : Shape := ⟨2, ![16, 1]⟩

abbrev nBuf : Space → Nat
  | .hbm => 101
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x1, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S16x128, .f32⟩
  | .hbm, ⟨87, _⟩ => ⟨S100000x1, .i32⟩
  | .hbm, ⟨88, _⟩ => ⟨S16x128, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S16, .f32⟩
  | .hbm, ⟨93, _⟩ => ⟨S100000x1, .i32⟩
  | .hbm, ⟨94, _⟩ => ⟨S16, .f32⟩
  | .hbm, ⟨95, _⟩ => ⟨S_, .f32⟩
  | .hbm, ⟨96, _⟩ => ⟨S16, .f32⟩
  | .hbm, ⟨97, _⟩ => ⟨S16, .f32⟩
  | .hbm, ⟨98, _⟩ => ⟨S16x1, .f32⟩
  | .hbm, ⟨99, _⟩ => ⟨S16x128, .f32⟩
  | .hbm, ⟨100, _⟩ => ⟨S16x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_c_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S16x128 : S_.BroadcastsInDim S16x128 (![] : Fin 0 → Fin S16x128.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S16x128_S100000x1_S100000x128_1_0_0_1_wf : ScatterDims.WF S16x128 S100000x1 S100000x128 [1] [0] [0] 1
  scatter_S16_S100000x1_S100000_n_0_0_1_wf : ScatterDims.WF S16 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S16x128 : Shape := ⟨2, ![16, 128]⟩
abbrev S100000x1 : Shape := ⟨2, ![100000, 1]⟩
abbrev S16 : Shape := ⟨1, ![16]⟩
abbrev S16x1 : Shape := ⟨2, ![16, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S16x128, .f32⟩
  | .hbm, ⟨95, _⟩ => ⟨S100000x1, .i32⟩
  | .hbm, ⟨96, _⟩ => ⟨S16x128, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S16, .f32⟩
  | .hbm, ⟨101, _⟩ => ⟨S100000x1, .i32⟩
  | .hbm, ⟨102, _⟩ => ⟨S16, .f32⟩
  | .hbm, ⟨103, _⟩ => ⟨S_, .f32⟩
  | .hbm, ⟨104, _⟩ => ⟨S16, .f32⟩
  | .hbm, ⟨105, _⟩ => ⟨S16, .f32⟩
  | .hbm, ⟨106, _⟩ => ⟨S16x1, .f32⟩
  | .hbm, ⟨107, _⟩ => ⟨S16x128, .f32⟩
  | .hbm, ⟨108, _⟩ => ⟨S16x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_cst_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S16x128 : S_.BroadcastsInDim S16x128 (![] : Fin 0 → Fin S16x128.rank)
  bcast_S100000_S100000x1_0 : S100000.BroadcastsInDim S100000x1 (![0] : Fin 1 → Fin S100000x1.rank)
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S16x128_S100000x1_S100000x128_1_0_0_1_wf : ScatterDims.WF S16x128 S100000x1 S100000x128 [1] [0] [0] 1
  scatter_S16_S100000x1_S100000_n_0_0_1_wf : ScatterDims.WF S16 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S16x128_S100000x1_S100000x128_1_0_0_1 : ScatterDims S16x128 S100000x1 S100000x128 where
  updateWindowDims := [1]
  insertedWindowDims := [0]
  scatterDimsToOperandDims := [0]
  indexVectorDim := 1
  wf := scatter_S16x128_S100000x1_S100000x128_1_0_0_1_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf

class Facts : Prop extends Facts₀ where

variable [Facts]
-- ==== Proof.KRun.lean ====
/-
  The tiled program's run, with every buffer kept.

  The program is nine segments: three stretches of host operations, the first matrix-product region, a stretch, the
  second region, a stretch, the bias region, and a last stretch.  Following the contents of every buffer through the
  segments gives a fold `W9` from the launch memory: a host stretch rewrites the buffers its operations write, a region
  leaves in its output array what its write-backs leave and touches nothing else.  Every weakly fair execution
  terminates without a fault, and on every core each buffer that outlives the run ends at what that fold gives it.
  (The frame claim keeps only the seven argument arrays of this statement; the value claim also needs the two results.)
-/
import proofs.«138903_j71038759076318_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the tiled program terminates, nothing faulting, and in
    every final state each unscoped buffer of each core holds the contents the fold `W9` assigns it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.Segments.lean ====
/-
  The plain program's operations cut at the places where the tiled program enters and leaves its three regions.

  The plain program is one line of 102 host operations.  Cut after operations 7, 43, 44, 60, 67, 83 and 86 it falls
  into: the 7 operations that build the two edge-endpoint arrays (the given edges followed by one self-loop per node);
  the 36 that build the edge weights from the node degrees; the first matrix product (1 operation); the first gather /
  scale / scatter-add message pass (16); bias, rectifier and the second matrix product (7); the second message pass
  (16); the last bias (3); and the per-graph mean (16).  Running the whole line is running the eight pieces one after
  another, each from the buffer contents the one before leaves.
-/
import proofs.«138903_j71038759076318_1_alg».proof.KernelIdeal
import proofs.«138903_j71038759076318_1_alg».proof.Proof.RefRun
import Idealize.ShloMosaic.Lib.Pipeline.Frame
import Idealize.ShloMosaic.PureOps.Ideal.Laws

noncomputable section

open Idealize.ShloMosaic Idealize.ShloMosaic.TcCoe Idealize.SL.Sem Idealize.ShloMosaic.StableHlo

namespace Cert.Bridge

/-- Buffer contents of the tiled program's device. -/
abbrev KV := Valuation Cert.KernelIdeal.τ Cert.KernelIdeal.sig (Elt Ideal)
/-- Buffer contents of the plain program's device. -/
abbrev RV := Valuation Cert.ReferenceIdeal.τ Cert.ReferenceIdeal.sig (Elt Ideal)

/-- The plain program's 102 operations over the extended reals. -/
abbrev rops : List (HloOp Cert.ReferenceIdeal.τ Cert.ReferenceIdeal.sig (Elt Ideal)) := Cert.ReferenceIdeal.RunP.ops (F := Ideal)

/-- A line of operations run up to its n-th operation and then from there on. -/
theorem after_split {τ : Topo} {sig : RefSig} {Val : EltTy → Type} (l : List (HloOp τ sig Val)) (n : Nat) (V : Valuation τ sig Val) :
    after l V = after (l.drop n) (after (l.take n) V) := by
  rw [← StableHlo.after_append, List.take_append_drop]

/-- The contents after each of the eight pieces, from the contents `V` at launch. -/
abbrev R1 (V : RV) : RV := after (rops.take 7) V
abbrev R2 (V : RV) : RV := after ((rops.drop 7).take 36) (R1 V)
abbrev R3 (V : RV) : RV := after ((rops.drop 43).take 1) (R2 V)
abbrev R4 (V : RV) : RV := after ((rops.drop 44).take 16) (R3 V)
abbrev R5 (V : RV) : RV := after ((rops.drop 60).take 7) (R4 V)
abbrev R6 (V : RV) : RV := after ((rops.drop 67).take 16) (R5 V)
abbrev R7 (V : RV) : RV := after ((rops.drop 83).take 3) (R6 V)
abbrev R8 (V : RV) : RV := after (rops.drop 86) (R7 V)

/-- The whole line is the eight pieces in a row. -/
theorem after_rops (V : RV) : after rops V = R8 V := by
  show after rops V = after (rops.drop 86) (after ((rops.drop 83).take 3) (after ((rops.drop 67).take 16)
    (after ((rops.drop 60).take 7) (after ((rops.drop 44).take 16) (after ((rops.drop 43).take 1)
    (after ((rops.drop 7).take 36) (after (rops.take 7) V)))))))
  rw [after_split rops 7 V, after_split (rops.drop 7) 36, List.drop_drop,
    after_split (rops.drop (7 + 36)) 1, List.drop_drop, after_split (rops.drop (7 + 36 + 1)) 16, List.drop_drop,
    after_split (rops.drop (7 + 36 + 1 + 16)) 7, List.drop_drop, after_split (rops.drop (7 + 36 + 1 + 16 + 7)) 16, List.drop_drop,
    after_split (rops.drop (7 + 36 + 1 + 16 + 7 + 16)) 3, List.drop_drop]

end Cert.Bridge

end
-- ==== Proof.StretchEndpoints.lean ====
/-
  The two edge-endpoint arrays are the same host operations in both programs.

  Row 0 of the edge list followed by the node numbers 0 … N − 1 is the sources array; row 1 followed by the same node
  numbers is the destinations array (one self-loop per node is appended).  Seven operations, reading only the edge list.
-/
import proofs.«138903_j71038759076318_1_alg».proof.Proof.Gen.KernelIdeal.Frame
import proofs.«138903_j71038759076318_1_alg».proof.Proof.Segments

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3)

namespace Cert.Bridge

/-- Equal edge lists going in, equal sources arrays coming out. -/
theorem sources (V : KV) (V' : RV) (hedges : V (Proc.devRef .tc Cert.KernelIdeal.main_arg1) = V' (Proc.devRef .tc Cert.ReferenceIdeal.main_arg1)) :
    after ((hostOps0 (F := Ideal)).take 7) V (Proc.devRef .tc Cert.KernelIdeal.main_v5) = after (rops.take 7) V' (Proc.devRef .tc Cert.ReferenceIdeal.main_v5) := by
  dsimp only [hostOps0, Cert.Bridge.rops, Cert.ReferenceIdeal.RunP.ops, List.drop, List.take]
  after_results
  rw [hedges]
  rfl

/-- Equal edge lists going in, equal destinations arrays coming out. -/
theorem destinations (V : KV) (V' : RV) (hedges : V (Proc.devRef .tc Cert.KernelIdeal.main_arg1) = V' (Proc.devRef .tc Cert.ReferenceIdeal.main_arg1)) :
    after ((hostOps0 (F := Ideal)).take 7) V (Proc.devRef .tc Cert.KernelIdeal.main_v6) = after (rops.take 7) V' (Proc.devRef .tc Cert.ReferenceIdeal.main_v6) := by
  dsimp only [hostOps0, Cert.Bridge.rops, Cert.ReferenceIdeal.RunP.ops, List.drop, List.take]
  after_results
  rw [hedges]
  rfl

end Cert.Bridge

end
-- ==== Proof.StretchWeights.lean ====
/-
  The edge weights are the same host operations in both programs.

  From the two edge-endpoint arrays both programs count each node's in-degree (a scatter-add of ones over the
  destinations), take the reciprocal square root of the degree (of one where the degree is below one, and zero where the
  degree is not positive), and give each edge the product of that value at its source and at its destination, negative
  endpoints wrapped around once.  Thirty-six operations, reading only the two endpoint arrays.
-/
import proofs.«138903_j71038759076318_1_alg».proof.Proof.Gen.KernelIdeal.Frame
import proofs.«138903_j71038759076318_1_alg».proof.Proof.Segments

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3)

namespace Cert.Bridge

/-- Equal endpoint arrays going in, equal edge weights coming out. -/
theorem weights (V : KV) (V' : RV)
    (hsrc : V (Proc.devRef .tc Cert.KernelIdeal.main_v5) = V' (Proc.devRef .tc Cert.ReferenceIdeal.main_v5))
    (hdst : V (Proc.devRef .tc Cert.KernelIdeal.main_v6) = V' (Proc.devRef .tc Cert.ReferenceIdeal.main_v6)) :
    after (hostOps0_2 (F := Ideal)) (after (hostOps0_1 (F := Ideal)) (after ((hostOps0 (F := Ideal)).drop 7) V)) (Proc.devRef .tc Cert.KernelIdeal.main_v31)
      = after ((rops.drop 7).take 36) V' (Proc.devRef .tc Cert.ReferenceIdeal.main_v31) := by
  dsimp only [hostOps0, hostOps0_1, hostOps0_2, Cert.Bridge.rops, Cert.ReferenceIdeal.RunP.ops, List.drop, List.take]
  after_results_simp
  rw [hsrc, hdst]
  rfl

end Cert.Bridge

end
-- ==== Proof.StretchPass.lean ====
/-
  The two message passes are the same host operations in both programs.

  A message pass gathers, for every edge, the source node's row of a node matrix, scales it by the edge's weight and
  adds it into the destination node's row of a zero matrix.  Both programs spell it with the same sixteen operations,
  reading four buffers: the node matrix, the two edge-endpoint arrays and the edge weights.  So from contents that
  agree on those four buffers the two programs leave the same scattered matrix.
-/
import proofs.«138903_j71038759076318_1_alg».proof.Proof.Gen.KernelIdeal.Frame
import proofs.«138903_j71038759076318_1_alg».proof.Proof.Segments

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3)

namespace Cert.Bridge

/-- The first message pass: equal node matrix, endpoints and weights going in, equal aggregate coming out. -/
theorem pass1 (V : KV) (V' : RV)
    (hpre : V (Proc.devRef .tc Cert.KernelIdeal.main_v32) = V' (Proc.devRef .tc Cert.ReferenceIdeal.main_v32))
    (hsrc : V (Proc.devRef .tc Cert.KernelIdeal.main_v5) = V' (Proc.devRef .tc Cert.ReferenceIdeal.main_v5))
    (hdst : V (Proc.devRef .tc Cert.KernelIdeal.main_v6) = V' (Proc.devRef .tc Cert.ReferenceIdeal.main_v6))
    (hnrm : V (Proc.devRef .tc Cert.KernelIdeal.main_v31) = V' (Proc.devRef .tc Cert.ReferenceIdeal.main_v31)) :
    after (hostOps1 (F := Ideal)) V (Proc.devRef .tc Cert.KernelIdeal.main_v45) = after ((rops.drop 44).take 16) V' (Proc.devRef .tc Cert.ReferenceIdeal.main_v45) := by
  dsimp only [hostOps1, Cert.Bridge.rops, Cert.ReferenceIdeal.RunP.ops, List.drop, List.take]
  after_results_simp
  rw [hpre, hsrc, hdst, hnrm]
  rfl

/-- The second message pass, on the second layer's node matrix. -/
theorem pass2 (V : KV) (V' : RV)
    (hpre : V (Proc.devRef .tc Cert.KernelIdeal.main_v46) = V' (Proc.devRef .tc Cert.ReferenceIdeal.main_v50))
    (hsrc : V (Proc.devRef .tc Cert.KernelIdeal.main_v5) = V' (Proc.devRef .tc Cert.ReferenceIdeal.main_v5))
    (hdst : V (Proc.devRef .tc Cert.KernelIdeal.main_v6) = V' (Proc.devRef .tc Cert.ReferenceIdeal.main_v6))
    (hnrm : V (Proc.devRef .tc Cert.KernelIdeal.main_v31) = V' (Proc.devRef .tc Cert.ReferenceIdeal.main_v31)) :
    after (hostOps2 (F := Ideal)) V (Proc.devRef .tc Cert.KernelIdeal.main_v59) = after ((rops.drop 67).take 16) V' (Proc.devRef .tc Cert.ReferenceIdeal.main_v63) := by
  dsimp only [hostOps2, Cert.Bridge.rops, Cert.ReferenceIdeal.RunP.ops, List.drop, List.take]
  after_results_simp
  rw [hpre, hsrc, hdst, hnrm]
  rfl

end Cert.Bridge

end
-- ==== Proof.StretchPool.lean ====
/-
  The per-graph mean is the same host operations in both programs.

  The node embeddings are added up per graph (a scatter-add over the graph id of each node), the nodes of each graph
  are counted the same way, and each sum is divided by its count, a count of zero replaced by one.  Both programs spell
  this with the same sixteen operations, reading the node embeddings and the graph ids.
-/
import proofs.«138903_j71038759076318_1_alg».proof.Proof.Gen.KernelIdeal.Frame
import proofs.«138903_j71038759076318_1_alg».proof.Proof.Segments

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3)

namespace Cert.Bridge

/-- Equal node embeddings and graph ids going in, equal graph embeddings coming out. -/
theorem pool (V : KV) (V' : RV)
    (hout : V (Proc.devRef .tc Cert.KernelIdeal.main_v60) = V' (Proc.devRef .tc Cert.ReferenceIdeal.main_v66))
    (hbatch : V (Proc.devRef .tc Cert.KernelIdeal.main_arg2) = V' (Proc.devRef .tc Cert.ReferenceIdeal.main_arg2)) :
    after (hostOps3 (F := Ideal)) V (Proc.devRef .tc Cert.KernelIdeal.main_v72) = after (rops.drop 86) V' (Proc.devRef .tc Cert.ReferenceIdeal.main_v78) := by
  dsimp only [hostOps3, Cert.Bridge.rops, Cert.ReferenceIdeal.RunP.ops, List.drop, List.take]
  after_results_simp
  rw [hout, hbatch]
  rfl

end Cert.Bridge

end
-- ==== Proof.KeepTiled.lean ====
/-
  What a stretch of the tiled program's host operations does not write, it keeps.

  Each buffer is written by exactly one operation, so a stretch leaves every buffer it has no operation for as it found
  it.  The lemmas below say so for the buffers that are still read later: the arguments through the first 43 operations,
  the two endpoint arrays through the weights' operations, endpoints, weights and the remaining arguments through the
  first message pass, the graph ids and the last bias through the second, the node embeddings through the mean.
-/
import proofs.«138903_j71038759076318_1_alg».proof.Proof.Gen.KernelIdeal.Frame
import proofs.«138903_j71038759076318_1_alg».proof.Proof.Segments

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3)

namespace Cert.Bridge

theorem keepK_prefix_arg0 (V : KV) : after (hostOps0_2 (F := Ideal)) (after (hostOps0_1 (F := Ideal)) (after (hostOps0 (F := Ideal)) V)) (Proc.devRef .tc Cert.KernelIdeal.main_arg0) = V (Proc.devRef .tc Cert.KernelIdeal.main_arg0) := by
  dsimp only [hostOps0, hostOps0_1, hostOps0_2]; after_results_simp

theorem keepK_prefix_arg2 (V : KV) : after (hostOps0_2 (F := Ideal)) (after (hostOps0_1 (F := Ideal)) (after (hostOps0 (F := Ideal)) V)) (Proc.devRef .tc Cert.KernelIdeal.main_arg2) = V (Proc.devRef .tc Cert.KernelIdeal.main_arg2) := by
  dsimp only [hostOps0, hostOps0_1, hostOps0_2]; after_results_simp

theorem keepK_prefix_arg3 (V : KV) : after (hostOps0_2 (F := Ideal)) (after (hostOps0_1 (F := Ideal)) (after (hostOps0 (F := Ideal)) V)) (Proc.devRef .tc Cert.KernelIdeal.main_arg3) = V (Proc.devRef .tc Cert.KernelIdeal.main_arg3) := by
  dsimp only [hostOps0, hostOps0_1, hostOps0_2]; after_results_simp

theorem keepK_prefix_arg4 (V : KV) : after (hostOps0_2 (F := Ideal)) (after (hostOps0_1 (F := Ideal)) (after (hostOps0 (F := Ideal)) V)) (Proc.devRef .tc Cert.KernelIdeal.main_arg4) = V (Proc.devRef .tc Cert.KernelIdeal.main_arg4) := by
  dsimp only [hostOps0, hostOps0_1, hostOps0_2]; after_results_simp

theorem keepK_prefix_arg5 (V : KV) : after (hostOps0_2 (F := Ideal)) (after (hostOps0_1 (F := Ideal)) (after (hostOps0 (F := Ideal)) V)) (Proc.devRef .tc Cert.KernelIdeal.main_arg5) = V (Proc.devRef .tc Cert.KernelIdeal.main_arg5) := by
  dsimp only [hostOps0, hostOps0_1, hostOps0_2]; after_results_simp

theorem keepK_prefix_arg6 (V : KV) : after (hostOps0_2 (F := Ideal)) (after (hostOps0_1 (F := Ideal)) (after (hostOps0 (F := Ideal)) V)) (Proc.devRef .tc Cert.KernelIdeal.main_arg6) = V (Proc.devRef .tc Cert.KernelIdeal.main_arg6) := by
  dsimp only [hostOps0, hostOps0_1, hostOps0_2]; after_results_simp

theorem keepK_weights_v5 (V : KV) : after (hostOps0_2 (F := Ideal)) (after (hostOps0_1 (F := Ideal)) (after ((hostOps0 (F := Ideal)).drop 7) V)) (Proc.devRef .tc Cert.KernelIdeal.main_v5) = V (Proc.devRef .tc Cert.KernelIdeal.main_v5) := by
  dsimp only [hostOps0, hostOps0_1, hostOps0_2, List.drop]; after_results_simp

theorem keepK_weights_v6 (V : KV) : after (hostOps0_2 (F := Ideal)) (after (hostOps0_1 (F := Ideal)) (after ((hostOps0 (F := Ideal)).drop 7) V)) (Proc.devRef .tc Cert.KernelIdeal.main_v6) = V (Proc.devRef .tc Cert.KernelIdeal.main_v6) := by
  dsimp only [hostOps0, hostOps0_1, hostOps0_2, List.drop]; after_results_simp

theorem keepK_pass1_v5 (V : KV) : after (hostOps1 (F := Ideal)) V (Proc.devRef .tc Cert.KernelIdeal.main_v5) = V (Proc.devRef .tc Cert.KernelIdeal.main_v5) := by
  dsimp only [hostOps1]; after_results_simp

theorem keepK_pass1_v6 (V : KV) : after (hostOps1 (F := Ideal)) V (Proc.devRef .tc Cert.KernelIdeal.main_v6) = V (Proc.devRef .tc Cert.KernelIdeal.main_v6) := by
  dsimp only [hostOps1]; after_results_simp

theorem keepK_pass1_v31 (V : KV) : after (hostOps1 (F := Ideal)) V (Proc.devRef .tc Cert.KernelIdeal.main_v31) = V (Proc.devRef .tc Cert.KernelIdeal.main_v31) := by
  dsimp only [hostOps1]; after_results_simp

theorem keepK_pass1_arg2 (V : KV) : after (hostOps1 (F := Ideal)) V (Proc.devRef .tc Cert.KernelIdeal.main_arg2) = V (Proc.devRef .tc Cert.KernelIdeal.main_arg2) := by
  dsimp only [hostOps1]; after_results_simp

theorem keepK_pass1_arg4 (V : KV) : after (hostOps1 (F := Ideal)) V (Proc.devRef .tc Cert.KernelIdeal.main_arg4) = V (Proc.devRef .tc Cert.KernelIdeal.main_arg4) := by
  dsimp only [hostOps1]; after_results_simp

theorem keepK_pass1_arg5 (V : KV) : after (hostOps1 (F := Ideal)) V (Proc.devRef .tc Cert.KernelIdeal.main_arg5) = V (Proc.devRef .tc Cert.KernelIdeal.main_arg5) := by
  dsimp only [hostOps1]; after_results_simp

theorem keepK_pass1_arg6 (V : KV) : after (hostOps1 (F := Ideal)) V (Proc.devRef .tc Cert.KernelIdeal.main_arg6) = V (Proc.devRef .tc Cert.KernelIdeal.main_arg6) := by
  dsimp only [hostOps1]; after_results_simp

theorem keepK_pass2_arg2 (V : KV) : after (hostOps2 (F := Ideal)) V (Proc.devRef .tc Cert.KernelIdeal.main_arg2) = V (Proc.devRef .tc Cert.KernelIdeal.main_arg2) := by
  dsimp only [hostOps2]; after_results_simp

theorem keepK_pass2_arg6 (V : KV) : after (hostOps2 (F := Ideal)) V (Proc.devRef .tc Cert.KernelIdeal.main_arg6) = V (Proc.devRef .tc Cert.KernelIdeal.main_arg6) := by
  dsimp only [hostOps2]; after_results_simp

theorem keepK_pool_v60 (V : KV) : after (hostOps3 (F := Ideal)) V (Proc.devRef .tc Cert.KernelIdeal.main_v60) = V (Proc.devRef .tc Cert.KernelIdeal.main_v60) := by
  dsimp only [hostOps3]; after_results_simp

end Cert.Bridge

end
-- ==== Proof.KeepPlain.lean ====
/-
  What a piece of the plain program's operations does not write, it keeps.

  The same bookkeeping for the plain program's eight pieces: the arguments through the first 43 operations, the two
  endpoint arrays through the weights' operations, endpoints, weights and the remaining arguments through the first
  matrix product and the first message pass, and so on down to the node embeddings through the mean.
-/
import proofs.«138903_j71038759076318_1_alg».proof.Proof.Gen.KernelIdeal.Frame
import proofs.«138903_j71038759076318_1_alg».proof.Proof.Segments

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3)

namespace Cert.Bridge

theorem keepR_endpoints_arg0 (V : RV) : after (rops.take 7) V (Proc.devRef .tc Cert.ReferenceIdeal.main_arg0) = V (Proc.devRef .tc Cert.ReferenceIdeal.main_arg0) := by
  dsimp only [Cert.Bridge.rops, Cert.ReferenceIdeal.RunP.ops, List.drop, List.take]; after_results_simp

theorem keepR_endpoints_arg2 (V : RV) : after (rops.take 7) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_endpoints_arg3 (V : RV) : after (rops.take 7) V (Proc.devRef .tc Cert.ReferenceIdeal.main_arg3) = V (Proc.devRef .tc Cert.ReferenceIdeal.main_arg3) := by
  dsimp only [Cert.Bridge.rops, Cert.ReferenceIdeal.RunP.ops, List.drop, List.take]; after_results_simp

theorem keepR_endpoints_arg4 (V : RV) : after (rops.take 7) V (Proc.devRef .tc Cert.ReferenceIdeal.main_arg4) = V (Proc.devRef .tc Cert.ReferenceIdeal.main_arg4) := by
  dsimp only [Cert.Bridge.rops, Cert.ReferenceIdeal.RunP.ops, List.drop, List.take]; after_results_simp

theorem keepR_endpoints_arg5 (V : RV) : after (rops.take 7) V (Proc.devRef .tc Cert.ReferenceIdeal.main_arg5) = V (Proc.devRef .tc Cert.ReferenceIdeal.main_arg5) := by
  dsimp only [Cert.Bridge.rops, Cert.ReferenceIdeal.RunP.ops, List.drop, List.take]; after_results_simp

theorem keepR_endpoints_arg6 (V : RV) : after (rops.take 7) V (Proc.devRef .tc Cert.ReferenceIdeal.main_arg6) = V (Proc.devRef .tc Cert.ReferenceIdeal.main_arg6) := by
  dsimp only [Cert.Bridge.rops, Cert.ReferenceIdeal.RunP.ops, List.drop, List.take]; after_results_simp

theorem keepR_weights_arg0 (V : RV) : after ((rops.drop 7).take 36) V (Proc.devRef .tc Cert.ReferenceIdeal.main_arg0) = V (Proc.devRef .tc Cert.ReferenceIdeal.main_arg0) := by
  dsimp only [Cert.Bridge.rops, Cert.ReferenceIdeal.RunP.ops, List.drop, List.take]; after_results_simp

theorem keepR_weights_arg2 (V : RV) : after ((rops.drop 7).take 36) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_weights_arg3 (V : RV) : after ((rops.drop 7).take 36) V (Proc.devRef .tc Cert.ReferenceIdeal.main_arg3) = V (Proc.devRef .tc Cert.ReferenceIdeal.main_arg3) := by
  dsimp only [Cert.Bridge.rops, Cert.ReferenceIdeal.RunP.ops, List.drop, List.take]; after_results_simp

theorem keepR_weights_arg4 (V : RV) : after ((rops.drop 7).take 36) V (Proc.devRef .tc Cert.ReferenceIdeal.main_arg4) = V (Proc.devRef .tc Cert.ReferenceIdeal.main_arg4) := by
  dsimp only [Cert.Bridge.rops, Cert.ReferenceIdeal.RunP.ops, List.drop, List.take]; after_results_simp

theorem keepR_weights_arg5 (V : RV) : after ((rops.drop 7).take 36) V (Proc.devRef .tc Cert.ReferenceIdeal.main_arg5) = V (Proc.devRef .tc Cert.ReferenceIdeal.main_arg5) := by
  dsimp only [Cert.Bridge.rops, Cert.ReferenceIdeal.RunP.ops, List.drop, List.take]; after_results_simp

theorem keepR_weights_arg6 (V : RV) : after ((rops.drop 7).take 36) V (Proc.devRef .tc Cert.ReferenceIdeal.main_arg6) = V (Proc.devRef .tc Cert.ReferenceIdeal.main_arg6) := by
  dsimp only [Cert.Bridge.rops, Cert.ReferenceIdeal.RunP.ops, List.drop, List.take]; after_results_simp

theorem keepR_weights_v5 (V : RV) : after ((rops.drop 7).take 36) V (Proc.devRef .tc Cert.ReferenceIdeal.main_v5) = V (Proc.devRef .tc Cert.ReferenceIdeal.main_v5) := by
  dsimp only [Cert.Bridge.rops, Cert.ReferenceIdeal.RunP.ops, List.drop, List.take]; after_results_simp

theorem keepR_weights_v6 (V : RV) : after ((rops.drop 7).take 36) V (Proc.devRef .tc Cert.ReferenceIdeal.main_v6) = V (Proc.devRef .tc Cert.ReferenceIdeal.main_v6) := by
  dsimp only [Cert.Bridge.rops, Cert.ReferenceIdeal.RunP.ops, List.drop, List.take]; after_results_simp

theorem keepR_prod_v5 (V : RV) : after ((rops.drop 43).take 1) V (Proc.devRef .tc Cert.ReferenceIdeal.main_v5) = V (Proc.devRef .tc Cert.ReferenceIdeal.main_v5) := by
  dsimp only [Cert.Bridge.rops, Cert.ReferenceIdeal.RunP.ops, List.drop, List.take]; after_results_simp

theorem keepR_prod_v6 (V : RV) : after ((rops.drop 43).take 1) V (Proc.devRef .tc Cert.ReferenceIdeal.main_v6) = V (Proc.devRef .tc Cert.ReferenceIdeal.main_v6) := by
  dsimp only [Cert.Bridge.rops, Cert.ReferenceIdeal.RunP.ops, List.drop, List.take]; after_results_simp

theorem keepR_prod_v31 (V : RV) : after ((rops.drop 43).take 1) V (Proc.devRef .tc Cert.ReferenceIdeal.main_v31) = V (Proc.devRef .tc Cert.ReferenceIdeal.main_v31) := by
  dsimp only [Cert.Bridge.rops, Cert.ReferenceIdeal.RunP.ops, List.drop, List.take]; after_results_simp

theorem keepR_prod_arg2 (V : RV) : after ((rops.drop 43).take 1) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_prod_arg4 (V : RV) : after ((rops.drop 43).take 1) V (Proc.devRef .tc Cert.ReferenceIdeal.main_arg4) = V (Proc.devRef .tc Cert.ReferenceIdeal.main_arg4) := by
  dsimp only [Cert.Bridge.rops, Cert.ReferenceIdeal.RunP.ops, List.drop, List.take]; after_results_simp

theorem keepR_prod_arg5 (V : RV) : after ((rops.drop 43).take 1) V (Proc.devRef .tc Cert.ReferenceIdeal.main_arg5) = V (Proc.devRef .tc Cert.ReferenceIdeal.main_arg5) := by
  dsimp only [Cert.Bridge.rops, Cert.ReferenceIdeal.RunP.ops, List.drop, List.take]; after_results_simp

theorem keepR_prod_arg6 (V : RV) : after ((rops.drop 43).take 1) V (Proc.devRef .tc Cert.ReferenceIdeal.main_arg6) = V (Proc.devRef .tc Cert.ReferenceIdeal.main_arg6) := by
  dsimp only [Cert.Bridge.rops, Cert.ReferenceIdeal.RunP.ops, List.drop, List.take]; after_results_simp

theorem keepR_pass1_v5 (V : RV) : after ((rops.drop 44).take 16) V (Proc.devRef .tc Cert.ReferenceIdeal.main_v5) = V (Proc.devRef .tc Cert.ReferenceIdeal.main_v5) := by
  dsimp only [Cert.Bridge.rops, Cert.ReferenceIdeal.RunP.ops, List.drop, List.take]; after_results_simp

theorem keepR_pass1_v6 (V : RV) : after ((rops.drop 44).take 16) V (Proc.devRef .tc Cert.ReferenceIdeal.main_v6) = V (Proc.devRef .tc Cert.ReferenceIdeal.main_v6) := by
  dsimp only [Cert.Bridge.rops, Cert.ReferenceIdeal.RunP.ops, List.drop, List.take]; after_results_simp

theorem keepR_pass1_v31 (V : RV) : after ((rops.drop 44).take 16) V (Proc.devRef .tc Cert.ReferenceIdeal.main_v31) = V (Proc.devRef .tc Cert.ReferenceIdeal.main_v31) := by
  dsimp only [Cert.Bridge.rops, Cert.ReferenceIdeal.RunP.ops, List.drop, List.take]; after_results_simp

theorem keepR_pass1_arg2 (V : RV) : after ((rops.drop 44).take 16) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_pass1_arg4 (V : RV) : after ((rops.drop 44).take 16) V (Proc.devRef .tc Cert.ReferenceIdeal.main_arg4) = V (Proc.devRef .tc Cert.ReferenceIdeal.main_arg4) := by
  dsimp only [Cert.Bridge.rops, Cert.ReferenceIdeal.RunP.ops, List.drop, List.take]; after_results_simp

theorem keepR_pass1_arg5 (V : RV) : after ((rops.drop 44).take 16) V (Proc.devRef .tc Cert.ReferenceIdeal.main_arg5) = V (Proc.devRef .tc Cert.ReferenceIdeal.main_arg5) := by
  dsimp only [Cert.Bridge.rops, Cert.ReferenceIdeal.RunP.ops, List.drop, List.take]; after_results_simp

theorem keepR_pass1_arg6 (V : RV) : after ((rops.drop 44).take 16) V (Proc.devRef .tc Cert.ReferenceIdeal.main_arg6) = V (Proc.devRef .tc Cert.ReferenceIdeal.main_arg6) := by
  dsimp only [Cert.Bridge.rops, Cert.ReferenceIdeal.RunP.ops, List.drop, List.take]; after_results_simp

theorem keepR_layer_v5 (V : RV) : after ((rops.drop 60).take 7) V (Proc.devRef .tc Cert.ReferenceIdeal.main_v5) = V (Proc.devRef .tc Cert.ReferenceIdeal.main_v5) := by
  dsimp only [Cert.Bridge.rops, Cert.ReferenceIdeal.RunP.ops, List.drop, List.take]; after_results_simp

theorem keepR_layer_v6 (V : RV) : after ((rops.drop 60).take 7) V (Proc.devRef .tc Cert.ReferenceIdeal.main_v6) = V (Proc.devRef .tc Cert.ReferenceIdeal.main_v6) := by
  dsimp only [Cert.Bridge.rops, Cert.ReferenceIdeal.RunP.ops, List.drop, List.take]; after_results_simp

theorem keepR_layer_v31 (V : RV) : after ((rops.drop 60).take 7) V (Proc.devRef .tc Cert.ReferenceIdeal.main_v31) = V (Proc.devRef .tc Cert.ReferenceIdeal.main_v31) := by
  dsimp only [Cert.Bridge.rops, Cert.ReferenceIdeal.RunP.ops, List.drop, List.take]; after_results_simp

theorem keepR_layer_arg2 (V : RV) : after ((rops.drop 60).take 7) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_layer_arg6 (V : RV) : after ((rops.drop 60).take 7) V (Proc.devRef .tc Cert.ReferenceIdeal.main_arg6) = V (Proc.devRef .tc Cert.ReferenceIdeal.main_arg6) := by
  dsimp only [Cert.Bridge.rops, Cert.ReferenceIdeal.RunP.ops, List.drop, List.take]; after_results_simp

theorem keepR_pass2_arg2 (V : RV) : after ((rops.drop 67).take 16) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_pass2_arg6 (V : RV) : after ((rops.drop 67).take 16) V (Proc.devRef .tc Cert.ReferenceIdeal.main_arg6) = V (Proc.devRef .tc Cert.ReferenceIdeal.main_arg6) := by
  dsimp only [Cert.Bridge.rops, Cert.ReferenceIdeal.RunP.ops, List.drop, List.take]; after_results_simp

theorem keepR_bias_arg2 (V : RV) : after ((rops.drop 83).take 3) V (Proc.devRef .tc Cert.ReferenceIdeal.main_arg2) = V (Proc.devRef .tc Cert.ReferenceIdeal.main_arg2) := by
  dsimp only [Cert.Bridge.rops, Cert.ReferenceIdeal.RunP.ops, List.drop, List.take]; after_results_simp

theorem keepR_pool_v66 (V : RV) : after (rops.drop 86) V (Proc.devRef .tc Cert.ReferenceIdeal.main_v66) = V (Proc.devRef .tc Cert.ReferenceIdeal.main_v66) := by
  dsimp only [Cert.Bridge.rops, Cert.ReferenceIdeal.RunP.ops, List.drop, List.take]; after_results_simp

end Cert.Bridge

end
-- ==== Proof.Spec.lean ====
/-
  The three dense steps of the two-layer graph convolution, entry by entry, over the extended reals.

  Writing N = 100000 nodes and D = 128 features, each step maps an [N, D] matrix to an [N, D] matrix and acts on
  every row separately:
    * `matProd x w`      : (x · w)[r, j]            = Σ_k x[r, k] · w[k, j];
    * `biasReluProd a b w`: (relu(a + b) · w)[r, j]  = Σ_k max(a[r, k] + b[k], 0) · w[k, j];
    * `addBias a b`      : (a + b)[r, j]            = a[r, j] + b[j].
  Because a row of the result depends on the same row of the matrix operand only, cutting the rows into blocks and
  computing block by block gives the same matrix: that is all the tiled program does differently from the plain one.
-/
import Idealize.ShloMosaic.PureOps.Ideal.Laws
import Idealize.ShloMosaic.Lib.ValueIdx

noncomputable section

namespace Cert.Bridge

open Idealize.ShloMosaic Idealize.ShloMosaic.ValueIdx

/-- An [a, b] matrix of extended reals. -/
abbrev Mat (a b : Nat) := FVec Ideal ⟨2, ![a, b]⟩ .f32
/-- A length-b vector of extended reals. -/
abbrev Vect (b : Nat) := FVec Ideal ⟨1, ![b]⟩ .f32

/-- The row of an entry. -/
abbrev rowOf {a b : Nat} (i : (⟨2, ![a, b]⟩ : Shape).Idx) : Fin a := ⟨(i 0).val, idx2_lt0 i⟩
/-- The column of an entry. -/
abbrev colOf {a b : Nat} (i : (⟨2, ![a, b]⟩ : Shape).Idx) : Fin b := ⟨(i 1).val, idx2_lt1 i⟩

/-- The matrix product x · w. -/
def matProd (x : Mat 100000 128) (w : Mat 128 128) : Mat 100000 128 :=
  fun i => ∑ k : Fin 128, x (ix2 (rowOf i) k) * w (ix2 k (colOf i))

theorem matProd_apply (x : Mat 100000 128) (w : Mat 128 128) (r : Fin 100000) (j : Fin 128) :
    matProd x w (ix2 r j) = ∑ k : Fin 128, x (ix2 r k) * w (ix2 k j) := rfl

/-- relu(a + b), the bias b added to every row. -/
def biasRelu (a : Mat 100000 128) (b : Vect 128) : Mat 100000 128 :=
  fun i => max (a i + b (ix1 (colOf i))) (Ideal.ofBits .f32 0x00000000#32)

theorem biasRelu_apply (a : Mat 100000 128) (b : Vect 128) (r : Fin 100000) (j : Fin 128) :
    biasRelu a b (ix2 r j) = max (a (ix2 r j) + b (ix1 j)) (Ideal.ofBits .f32 0x00000000#32) := rfl

/-- relu(a + b) · w. -/
def biasReluProd (a : Mat 100000 128) (b : Vect 128) (w : Mat 128 128) : Mat 100000 128 :=
  matProd (biasRelu a b) w

/-- a + b, the bias b added to every row. -/
def addBias (a : Mat 100000 128) (b : Vect 128) : Mat 100000 128 :=
  fun i => a i + b (ix1 (colOf i))

theorem addBias_apply (a : Mat 100000 128) (b : Vect 128) (r : Fin 100000) (j : Fin 128) :
    addBias a b (ix2 r j) = a (ix2 r j) + b (ix1 j) := rfl

end Cert.Bridge

end
-- ==== Proof.LibHostDot.lean ====
/-
  The host's matrix product read at one entry, over the extended reals.

  A `dot_general` of an [A, K] matrix by a [K, B] matrix that contracts the left operand's second axis with the
  right operand's first has at entry (r, j) the value Σ_k lhs[r, k] · rhs[k, j]: over the extended reals the host's
  product is the exact sum, whatever order a schedule would add it in.  The same statement for a product accumulated
  into the zero matrix is `Cert.LibMatmul.plain_matmul_zero_apply`; the two sums are term for term the same.
-/
import Idealize.ShloMosaic.PureOps.Ideal.Laws
import Idealize.ShloMosaic.Lib.ValueIdx

noncomputable section

namespace Cert.LibHostDot

open Idealize.ShloMosaic Idealize.ShloMosaic.ValueIdx

/-- Entry (r, j) of the host's plain matrix product is the sum over the contracted axis. -/
theorem plain_dotGeneral_apply {A K B : Nat} {φ₁ φ₂ : FTy} (prec : Option ContractPrecision) (sched : HostSchedule)
    (lhs : FVec Ideal ⟨2, ![A, K]⟩ φ₁) (rhs : FVec Ideal ⟨2, ![K, B]⟩ φ₂) (r : Fin A) (j : Fin B) :
    FloatOps.dotGeneral (DotDims.plain A K B) prec sched lhs rhs (ix2 r j)
      = ∑ k : Fin K, lhs (ix2 r k) * rhs (ix2 k j) := by
  rw [Ideal.dotGeneral_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibHostDot

end
-- ==== Proof.LibRowBias.lean ====
/-
  A bias vector spread over the rows of a matrix, on the host: [b] → [1, b] → [a, b].

  The host writes "add the vector x to every row" as two broadcasts: first x becomes the single row of a [1, b]
  matrix, then that row is repeated a times.  Read at entry (r, j) the result is x[j], whatever the row r.
-/
import Idealize.ShloMosaic.Lib.Pipeline.Value
import Idealize.ShloMosaic.Lib.ValueIdx

noncomputable section

namespace Cert.LibRowBias

open Idealize.ShloMosaic Idealize.ShloMosaic.ValueIdx

/-- Entry (r, j) of a vector broadcast to one row and then to `a` rows is the vector's entry `j`. -/
theorem host_rowBias_apply {a b : Nat} {α : Type}
    (h1 : (⟨1, ![b]⟩ : Shape).BroadcastsInDim ⟨2, ![1, b]⟩ ![1])
    (h2 : (⟨2, ![1, b]⟩ : Shape).BroadcastsInDim ⟨2, ![a, b]⟩ ![0, 1])
    (x : (⟨1, ![b]⟩ : Shape).Idx → α) (r : Fin a) (j : Fin b) :
    broadcastInDim ⟨2, ![a, b]⟩ ![0, 1] h2 (broadcastInDim ⟨2, ![1, b]⟩ ![1] h1 x) (ix2 r j) = x (ix1 j) := by
  have hj : j.val = if b = 1 then 0 else j.val := by
    split
    · next hb => have := j.isLt; omega
    · rfl
  refine (broadcastInDim_apply _ h2 _ (ix2 r j) (ix2 (0 : Fin 1) j) (fun d => ?_)).trans
    (broadcastInDim_apply _ h1 x (ix2 (0 : Fin 1) j) (ix1 j) (fun d => ?_))
  · match d with
    | ⟨0, _⟩ => show (0 : Nat) = if (1 : Nat) = 1 then 0 else r.val; rw [if_pos rfl]
    | ⟨1, _⟩ => exact hj
  · match d with
    | ⟨0, _⟩ => exact hj

end Cert.LibRowBias

end
-- ==== Proof.RefDense.lean ====
/-
  The host program's three dense steps against the specification, entry by entry, over the extended reals.

  Writing N = 100000 and D = 128, each step produces an [N, D] matrix:
    * the host's product of x by w has at (r, j) the exact sum Σ_k x[r, k] · w[k, j], which is the matrix product x · w;
    * in the second step the left operand of the product is max(a + b', 0) taken entry by entry, where b' is the bias b
      spread over the rows (first made the one row of a [1, D] matrix, then repeated N times, so b'[r, k] = b[k]) and 0
      is a scalar zero spread over the whole matrix; the product is then Σ_k max(a[r, k] + b[k], 0) · w[k, j], that is
      relu(a + b) · w;
    * the third step is a + b' entry by entry: (a + b)[r, j] = a[r, j] + b[j].
-/
import proofs.«138903_j71038759076318_1_alg».proof.Proof.Gen.ReferenceIdeal
import proofs.«138903_j71038759076318_1_alg».proof.Proof.Spec
import proofs.«138903_j71038759076318_1_alg».proof.Proof.LibHostDot
import proofs.«138903_j71038759076318_1_alg».proof.Proof.LibRowBias
import Idealize.ShloMosaic.Lib.Pipeline.Value
import Idealize.ShloMosaic.Lib.ValueIdx
import Idealize.ShloMosaic.PureOps.Ideal.Laws

noncomputable section

namespace Cert.ReferenceIdeal.Dense

open Cert.ReferenceIdeal Cert.ReferenceIdeal.Gen Idealize.ShloMosaic Idealize.ShloMosaic.ValueIdx

/-- The host's product of x by w is the matrix product x · w: at (r, j) both are Σ_k x[r, k] · w[k, j]. -/
theorem hostProd_eq (x : Cert.Bridge.Mat 100000 128) (w : Cert.Bridge.Mat 128 128) :
    Host.dotGeneral dot_S100000x128_S128x128_S100000x128_1_0_0_1_n_n none x w = Cert.Bridge.matProd x w := by
  funext i
  obtain ⟨r, j, rfl⟩ : ∃ (r : Fin 100000) (j : Fin 128), i = ix2 r j := ⟨i 0, i 1, eq_ix2 i⟩
  rw [Cert.Bridge.matProd_apply]
  exact Cert.LibHostDot.plain_dotGeneral_apply (A := 100000) (K := 128) (B := 128) none .single x w r j

/-- The host's product of max(a + b', 0) by w, with b' the bias spread over the rows and 0 a scalar zero spread over
    the matrix, is relu(a + b) · w: at (r, j) both are Σ_k max(a[r, k] + b[k], 0) · w[k, j]. -/
theorem hostBiasReluProd_eq (a : Cert.Bridge.Mat 100000 128) (b : Cert.Bridge.Vect 128) (w : Cert.Bridge.Mat 128 128) :
    Host.dotGeneral dot_S100000x128_S128x128_S100000x128_1_0_0_1_n_n none
        (maximumf (addf a (broadcastInDim S100000x128 ![0, 1] bcast_S1x128_S100000x128_0_1 (broadcastInDim S1x128 ![1] bcast_S128_S1x128_1 b)))
          (broadcastInDim S100000x128 ![] bcast_S_S100000x128 (constant (F := Ideal) S_ .f32 0x00000000#32))) w
      = Cert.Bridge.biasReluProd a b w := by
  funext i
  obtain ⟨r, j, rfl⟩ : ∃ (r : Fin 100000) (j : Fin 128), i = ix2 r j := ⟨i 0, i 1, eq_ix2 i⟩
  unfold Cert.Bridge.biasReluProd
  rw [Cert.Bridge.matProd_apply]
  refine (Cert.LibHostDot.plain_dotGeneral_apply (A := 100000) (K := 128) (B := 128) none .single _ w r j).trans ?_
  refine Finset.sum_congr rfl fun k _ => ?_
  rw [Cert.Bridge.biasRelu_apply, maximumf_apply, addf_apply, Cert.LibRowBias.host_rowBias_apply,
    broadcastInDim_apply ![] bcast_S_S100000x128 _ (ix2 r k) ix0 (fun d => d.elim0), constant_apply]

/-- a plus the bias spread over the rows is a + b: at (r, j) both are a[r, j] + b[j]. -/
theorem hostAddBias_eq (a : Cert.Bridge.Mat 100000 128) (b : Cert.Bridge.Vect 128) :
    addf a (broadcastInDim S100000x128 ![0, 1] bcast_S1x128_S100000x128_0_1 (broadcastInDim S1x128 ![1] bcast_S128_S1x128_1 b))
      = Cert.Bridge.addBias a b := by
  funext i
  obtain ⟨r, j, rfl⟩ : ∃ (r : Fin 100000) (j : Fin 128), i = ix2 r j := ⟨i 0, i 1, eq_ix2 i⟩
  rw [Cert.Bridge.addBias_apply, addf_apply, Cert.LibRowBias.host_rowBias_apply]

end Cert.ReferenceIdeal.Dense

end
-- ==== Proof.RefEval.lean ====
/-
  The plain program's three dense steps, read off its operations.

  Between the shared stretches the plain program has: one matrix product x · W1; then bias, rectifier and the second
  matrix product, relu(a + b1) · W2, spelt as two broadcasts of the bias, an addition, a maximum against a splat of zero
  and the product; then the last bias, two broadcasts and an addition.  Each lemma evaluates the piece at the buffer it
  produces, from arbitrary contents going in, as the specification's function of the buffers it reads.
-/
import proofs.«138903_j71038759076318_1_alg».proof.Proof.Segments
import proofs.«138903_j71038759076318_1_alg».proof.Proof.Spec
import proofs.«138903_j71038759076318_1_alg».proof.Proof.RefDense

noncomputable section

open Idealize.ShloMosaic Idealize.ShloMosaic.TcCoe Idealize.SL.Sem Idealize.ShloMosaic.StableHlo

namespace Cert.Bridge

/-- The first matrix product. -/
theorem evalR_prod (V : RV) :
    after ((rops.drop 43).take 1) V (Proc.devRef .tc Cert.ReferenceIdeal.main_v32) = matProd (V (Proc.devRef .tc Cert.ReferenceIdeal.main_arg0)) (V (Proc.devRef .tc Cert.ReferenceIdeal.main_arg3)) := by
  refine Eq.trans ?_ (Cert.ReferenceIdeal.Dense.hostProd_eq (V (Proc.devRef .tc Cert.ReferenceIdeal.main_arg0)) (V (Proc.devRef .tc Cert.ReferenceIdeal.main_arg3)))
  dsimp only [Cert.Bridge.rops, Cert.ReferenceIdeal.RunP.ops, List.drop, List.take]; after_results_simp <;> rfl

/-- Bias, rectifier and the second matrix product. -/
theorem evalR_layer (V : RV) :
    after ((rops.drop 60).take 7) V (Proc.devRef .tc Cert.ReferenceIdeal.main_v50)
      = biasReluProd (V (Proc.devRef .tc Cert.ReferenceIdeal.main_v45)) (V (Proc.devRef .tc Cert.ReferenceIdeal.main_arg4)) (V (Proc.devRef .tc Cert.ReferenceIdeal.main_arg5)) := by
  refine Eq.trans ?_ (Cert.ReferenceIdeal.Dense.hostBiasReluProd_eq (V (Proc.devRef .tc Cert.ReferenceIdeal.main_v45)) (V (Proc.devRef .tc Cert.ReferenceIdeal.main_arg4)) (V (Proc.devRef .tc Cert.ReferenceIdeal.main_arg5)))
  dsimp only [Cert.Bridge.rops, Cert.ReferenceIdeal.RunP.ops, List.drop, List.take]; after_results_simp <;> rfl

/-- The last bias. -/
theorem evalR_bias (V : RV) :
    after ((rops.drop 83).take 3) V (Proc.devRef .tc Cert.ReferenceIdeal.main_v66) = addBias (V (Proc.devRef .tc Cert.ReferenceIdeal.main_v63)) (V (Proc.devRef .tc Cert.ReferenceIdeal.main_arg6)) := by
  refine Eq.trans ?_ (Cert.ReferenceIdeal.Dense.hostAddBias_eq (V (Proc.devRef .tc Cert.ReferenceIdeal.main_v63)) (V (Proc.devRef .tc Cert.ReferenceIdeal.main_arg6)))
  dsimp only [Cert.Bridge.rops, Cert.ReferenceIdeal.RunP.ops, List.drop, List.take]; after_results_simp <;> rfl

end Cert.Bridge

end
-- ==== Proof.LibMatmul.lean ====
/-
  A matrix product read at one entry, over the extended reals.

  A product of an [A, K] matrix by a [K, B] matrix whose dimension numbers contract the left operand's second axis
  with the right operand's first, accumulated into the zero matrix, has at entry (r, j) the value
  Σ_k lhs[r, k] · rhs[k, j]: exact arithmetic leaves neither rounding nor a chunk order in it.
-/
import Idealize.ShloMosaic.PureOps.Ideal.Laws
import Idealize.ShloMosaic.Lib.ValueIdx

noncomputable section

namespace Cert.LibMatmul

open Idealize.ShloMosaic Idealize.ShloMosaic.ValueIdx

/-- Entry (r, j) of a plain matrix product into a zero accumulator is the sum over the contracted axis. -/
theorem plain_matmul_zero_apply {A K B : Nat} {φ₁ φ₂ : FTy} (prec : Option ContractPrecision)
    (lhs : FVec Ideal ⟨2, ![A, K]⟩ φ₁) (rhs : FVec Ideal ⟨2, ![K, B]⟩ φ₂) (r : Fin A) (j : Fin B) :
    FloatOps.matmul (DotDims.plain A K B) prec lhs rhs (constant (F := Ideal) ⟨2, ![A, B]⟩ .f32 0x00000000#32) (ix2 r j)
      = ∑ k : Fin K, lhs (ix2 r k) * rhs (ix2 k j) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 r j) ((contrEquiv1 (DotDims.plain A K B) K rfl rfl).symm k) = ix2 r k :=
    funext fun a => Fin.ext (by
      match a with
      | ⟨0, _⟩ => rfl
      | ⟨1, _⟩ => exact ((DotDims.plain A K B).lhsIdx_val_of_single rfl (ix2 r j) _).trans hk)
  have er : (DotDims.plain A K B).rhsIdx (ix2 r j) ((contrEquiv1 (DotDims.plain A K B) K rfl rfl).symm k) = ix2 k j :=
    funext fun a => Fin.ext (by
      match a with
      | ⟨0, _⟩ => exact ((DotDims.plain A K B).rhsIdx_val_of_single rfl (ix2 r j) _).trans hk
      | ⟨1, _⟩ => rfl)
  rw [el, er]

end Cert.LibMatmul

end
-- ==== Proof.KRegion0.lean ====
/-
  The first matrix-product region, from blocks to the array.

  The region walks a grid of 20 points. At point t it reads rows 5000·t … 5000·t + 4999 of the [100000, 128] matrix x
  (a [5000, 128] block) and the whole [128, 128] matrix w, and writes back one [5000, 128] block of the result at the
  same rows. Entry (p, q) of the block it writes is Σ_k x[5000·t + p, k] · w[k, q]: the two narrowings to the shorter
  float format are the identity over the extended reals, and the product into a zero accumulator is the plain sum over
  the contracted axis. A row of the result depends on the same row of x only, so the block written at point t is the
  restriction to its rows of the matrix x · w. Row r of the array lies in the block of point r / 5000, so the 20 blocks
  cover the array, and the array the region leaves is x · w.
-/
import proofs.«138903_j71038759076318_1_alg».proof.Proof.Gen.KernelIdeal.Frame
import proofs.«138903_j71038759076318_1_alg».proof.Proof.Spec
import proofs.«138903_j71038759076318_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets (0, 0), as the constant-zero function. -/
theorem zeroPair_r0 : (![0, 0] : Fin 2 → Nat) = fun _ => 0 := funext fun a => by fin_cases a <;> rfl

/-- Entry (p, q) of what the body computes from a block x0 and the matrix x1: Σ_k x0[p, k] · x1[k, q]. Narrowing to
    the shorter float format changes nothing over the extended reals, and the product starts from the zero matrix. -/
theorem matmul_entry (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Cert.LibMatmul.plain_matmul_zero_apply (A := 5000) (K := 128) (B := 128) none
    (truncf .bf16 x0 bitsLt_bf16_f32) (truncf .bf16 x1 bitsLt_bf16_f32) p q

/-- The block indices over the grid: at point t the row-block windows (input and output) are at block (t, 0), the
    window of the [128, 128] matrix at block (0, 0). -/
theorem blockIndex_r0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 5000·t … 5000·t + 4999 of x: its entry y is x's entry k whenever k's row is
    5000·t + y's row and the columns agree. -/
theorem rowBlock_r0 (c : Dev nD) (t : Fin cfg0.N) (y : S5000x128.Idx) (k : S100000x128.Idx)
    (hk0 : (k 0).val = t.val * 5000 + (y 0).val) (hk1 : (k 1).val = (y 1).val) :
    (iblk0 V c 0 t : Vec Ideal S5000x128 .f32) y = (V c main_arg0 : S100000x128.Idx → Elt Ideal .f32) k := by
  obtain ⟨e00, e01, -⟩ := blockIndex_r0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e00, hk0]; omega
  | ⟨1, _⟩ => show win0_0.index t (1 : Fin 2) * 128 + 1 * (y 1).val = (k 1).val; rw [e01, hk1]; omega

/-- The block of the [128, 128] matrix at every point is the whole matrix. -/
theorem weightBlock_r0 (c : Dev nD) (t : Fin cfg0.N) (y : S128x128.Idx) :
    (iblk0 V c 1 t : Vec Ideal S128x128 .f32) y = (V c main_arg3 : S128x128.Idx → Elt Ideal .f32) y := by
  obtain ⟨-, -, e10, e11, -⟩ := blockIndex_r0 t
  unfold iblk0
  rw [View.read_apply]
  show V c main_arg3 _ = V c main_arg3 _
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 128 + 1 * (y 1).val = (y 1).val; rw [e11]; omega

/-- Entry y of the output block at point t sits in the array at row 5000·t + y's row, same column. -/
theorem outBlock_emb_r0 (t : Fin cfg0.N) (y : S5000x128.Idx) (k : S100000x128.Idx)
    (hk0 : (k 0).val = t.val * 5000 + (y 0).val) (hk1 : (k 1).val = (y 1).val) :
    ((cfg0.win 2).blk t).view.emb y = k := by
  obtain ⟨-, -, -, -, e20, e21⟩ := blockIndex_r0 t
  funext a
  apply Fin.ext
  match a with
  | ⟨0, _⟩ => show win0_2.index t (0 : Fin 2) * 5000 + 1 * (y 0).val = (k 0).val; rw [e20, hk0]; omega
  | ⟨1, _⟩ => show win0_2.index t (1 : Fin 2) * 128 + 1 * (y 1).val = (k 1).val; rw [e21, hk1]; omega

/-- Entry j = (p, q) of what the body computes at point t from the blocks it is given is entry (5000·t + p, q) of
    x · w: the sum runs over row 5000·t + p of x and column q of w. -/
theorem flushed_entry_r0 (c : Dev nD) (t : Fin cfg0.N) (j : S5000x128.Idx) :
    k0_pay1 (iblk0 V c 0 t) (iblk0 V c 1 t) j
      = Cert.Bridge.matProd (V c main_arg0) (V c main_arg3) (((cfg0.win 2).blk t).view.emb j) := by
  have hN : cfg0.N = 20 := N_0
  have ht : t.val < 20 := hN ▸ t.isLt
  obtain ⟨p, q, rfl⟩ : ∃ (p : Fin 5000) (q : Fin 128), j = ix2 p q := ⟨j 0, j 1, eq_ix2 j⟩
  have hr : t.val * 5000 + p.val < 100000 := by have := p.isLt; omega
  refine (matmul_entry _ _ p q).trans ?_
  rw [outBlock_emb_r0 t (ix2 p q) (ix2 ⟨t.val * 5000 + p.val, hr⟩ q) rfl rfl, Cert.Bridge.matProd_apply]
  refine Finset.sum_congr rfl fun k _ => ?_
  rw [rowBlock_r0 V c t (ix2 p k) (ix2 ⟨t.val * 5000 + p.val, hr⟩ k) rfl rfl, weightBlock_r0 V c t (ix2 k q)]

/-- What point t writes back is block t of x · w. -/
theorem flushed_eq_r0 (c : Dev nD) (t : Fin cfg0.N) :
    (dat0 V c).flushed 2 t = ((cfg0.win 2).blk t).view.read (Elt Ideal) (Cert.Bridge.matProd (V c main_arg0) (V c main_arg3)) := by
  show (cfg0.win 2).cut (grid0.coords t) ((dat0 V c).after 2 t) = _
  rw [after0_2]
  unfold out0_2
  rw [View.canon_unit_zero zeroPair_r0]
  simp only [View.ld_unit_zero (S := S5000x128) zeroPair_r0, View.ld_unit_zero (S := S128x128) zeroPair_r0]
  funext j
  exact flushed_entry_r0 V c t j

/-- An index of the array is in point t's output block iff each coordinate is in the block's range on its axis. -/
theorem mem_outBlock_r0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the array is in some point's output block: row r is in the block of point r / 5000. -/
theorem covered_r0 (i : S100000x128.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e20, e21⟩ := blockIndex_r0 t
  refine ⟨t, flush0_2 t, ?_⟩
  rw [mem_outBlock_r0]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 128 ≤ (i 1).val ∧ (i 1).val < win0_2.index t (1 : Fin 2) * 128 + 128; rw [e21]; omega

/-- The array the region leaves is x · w. -/
theorem region0_array (c : Dev nD) :
    (dat0 (F := Ideal) V c).arrAt 2 cfg0.N = Cert.Bridge.matProd (V c main_arg0) (V c main_arg3) :=
  (dat0 V c).arrAt_eq_of_cover 2 (Cert.Bridge.matProd (V c main_arg0) (V c main_arg3)) (fun t _ => flushed_eq_r0 V c t) covered_r0

end Cert.KernelIdeal.Regions

end
-- ==== Proof.KRegion1.lean ====
/-
  The bias, rectifier and matrix-product region, from blocks to the array.

  The region walks a grid of 20 points. At point t it reads rows 5000·t … 5000·t + 4999 of the [100000, 128] matrix a
  (a [5000, 128] block), the whole length-128 bias b and the whole [128, 128] matrix w, and writes back one [5000, 128]
  block of the result at the same rows. Entry (p, q) of the block it writes is
  Σ_k max(a[5000·t + p, k] + b[k], 0) · w[k, q]: the bias is viewed as a single row [1, 128] repeated over the rows of
  the block, the maximum against zero is taken entry by entry, the narrowings to the shorter float format are the
  identity over the extended reals, and the product into a zero accumulator is the plain sum over the contracted axis.
  A row of the result depends on the same row of a only, so the block written at point t is the restriction to its rows
  of the matrix relu(a + b) · w. Row r of the array lies in the block of point r / 5000, so the 20 blocks cover the
  array, and the array the region leaves is relu(a + b) · w.
-/
import proofs.«138903_j71038759076318_1_alg».proof.Proof.Gen.KernelIdeal.Frame
import proofs.«138903_j71038759076318_1_alg».proof.Proof.Spec
import proofs.«138903_j71038759076318_1_alg».proof.Proof.LibMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets (0, 0), as the constant-zero function. -/
theorem zeroPair_r1 : (![0, 0] : Fin 2 → Nat) = fun _ => 0 := funext fun a => by fin_cases a <;> rfl
/-- The offset (0), as the constant-zero function. -/
theorem zeroSingle_r1 : (![0] : Fin 1 → Nat) = fun _ => 0 := funext fun a => by fin_cases a <;> rfl

/-- Entry (p, q) of what the body computes from a block x0, the bias x1 and the matrix x2:
    Σ_k max(x0[p, k] + x1[k], 0) · x2[k, q]. -/
theorem biasReluMatmul_entry (x0 : Vec Ideal S5000x128 .f32) (x1 : Vec Ideal S128 .f32) (x2 : Vec Ideal S128x128 .f32)
    (p : Fin 5000) (q : Fin 128) :
    k1_pay1 x0 x1 x2 (ix2 p q)
      = ∑ k : Fin 128, max (x0 (ix2 p k) + x1 (ix1 k)) (Ideal.ofBits .f32 0x00000000#32) * x2 (ix2 k q) := by
  unfold k1_pay1
  refine (Cert.LibMatmul.plain_matmul_zero_apply (A := 5000) (K := 128) (B := 128) none _ _ p q).trans ?_
  refine Finset.sum_congr rfl fun k _ => ?_
  rw [truncf_apply, truncf_apply, maximumf_apply, addf_apply, shapeCast_self, broadcastTo_1b_ab_apply,
    shapeCast_a_1a_apply, broadcast_apply]
  rfl

/-- The block indices over the grid: at point t the row-block windows (input and output) are at block (t, 0), the bias
    window at block 0, the window of the [128, 128] matrix at block (0, 0). -/
theorem blockIndex_r1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t is rows 5000·t … 5000·t + 4999 of a: its entry y is a's entry k whenever k's row is
    5000·t + y's row and the columns agree. -/
theorem rowBlock_r1 (c : Dev nD) (t : Fin cfg1.N) (y : S5000x128.Idx) (k : S100000x128.Idx)
    (hk0 : (k 0).val = t.val * 5000 + (y 0).val) (hk1 : (k 1).val = (y 1).val) :
    (iblk1 V c 0 t : Vec Ideal S5000x128 .f32) y = (V c main_v45 : S100000x128.Idx → Elt Ideal .f32) k := by
  obtain ⟨e00, e01, -⟩ := blockIndex_r1 t
  unfold iblk1
  rw [View.read_apply]
  show V c main_v45 _ = V c main_v45 _
  congr 1
  funext a
  apply Fin.ext
  match a with
  | ⟨0, _⟩ => show win1_0.index t (0 : Fin 2) * 5000 + 1 * (y 0).val = (k 0).val; rw [e00, hk0]; omega
  | ⟨1, _⟩ => show win1_0.index t (1 : Fin 2) * 128 + 1 * (y 1).val = (k 1).val; rw [e01, hk1]; omega

/-- The bias block at every point is the whole bias. -/
theorem biasBlock_r1 (c : Dev nD) (t : Fin cfg1.N) (y : S128.Idx) :
    (iblk1 V c 1 t : Vec Ideal S128 .f32) y = (V c main_arg4 : S128.Idx → Elt Ideal .f32) y := by
  obtain ⟨-, -, e10, -⟩ := blockIndex_r1 t
  unfold iblk1
  rw [View.read_apply]
  show V c main_arg4 _ = V c main_arg4 _
  congr 1
  funext a
  apply Fin.ext
  match a with
  | ⟨0, _⟩ => show win1_1.index t (0 : Fin 1) * 128 + 1 * (y 0).val = (y 0).val; rw [e10]; omega

/-- The block of the [128, 128] matrix at every point is the whole matrix. -/
theorem weightBlock_r1 (c : Dev nD) (t : Fin cfg1.N) (y : S128x128.Idx) :
    (iblk1 V c 2 t : Vec Ideal S128x128 .f32) y = (V c main_arg5 : S128x128.Idx → Elt Ideal .f32) y := by
  obtain ⟨-, -, -, e20, e21, -⟩ := blockIndex_r1 t
  unfold iblk1
  rw [View.read_apply]
  show V c main_arg5 _ = V c main_arg5 _
  congr 1
  funext a
  apply Fin.ext
  match a with
  | ⟨0, _⟩ => show win1_2.index t (0 : Fin 2) * 128 + 1 * (y 0).val = (y 0).val; rw [e20]; omega
  | ⟨1, _⟩ => show win1_2.index t (1 : Fin 2) * 128 + 1 * (y 1).val = (y 1).val; rw [e21]; omega

/-- Entry y of the output block at point t sits in the array at row 5000·t + y's row, same column. -/
theorem outBlock_emb_r1 (t : Fin cfg1.N) (y : S5000x128.Idx) (k : S100000x128.Idx)
    (hk0 : (k 0).val = t.val * 5000 + (y 0).val) (hk1 : (k 1).val = (y 1).val) :
    ((cfg1.win 3).blk t).view.emb y = k := by
  obtain ⟨-, -, -, -, -, e30, e31⟩ := blockIndex_r1 t
  funext a
  apply Fin.ext
  match a with
  | ⟨0, _⟩ => show win1_3.index t (0 : Fin 2) * 5000 + 1 * (y 0).val = (k 0).val; rw [e30, hk0]; omega
  | ⟨1, _⟩ => show win1_3.index t (1 : Fin 2) * 128 + 1 * (y 1).val = (k 1).val; rw [e31, hk1]; omega

/-- Entry j = (p, q) of what the body computes at point t from the blocks it is given is entry (5000·t + p, q) of
    relu(a + b) · w: the sum runs over row 5000·t + p of a, the whole bias, and column q of w. -/
theorem flushed_entry_r1 (c : Dev nD) (t : Fin cfg1.N) (j : S5000x128.Idx) :
    k1_pay1 (iblk1 V c 0 t) (iblk1 V c 1 t) (iblk1 V c 2 t) j
      = Cert.Bridge.biasReluProd (V c main_v45) (V c main_arg4) (V c main_arg5) (((cfg1.win 3).blk t).view.emb j) := by
  have hN : cfg1.N = 20 := N_1
  have ht : t.val < 20 := hN ▸ t.isLt
  obtain ⟨p, q, rfl⟩ : ∃ (p : Fin 5000) (q : Fin 128), j = ix2 p q := ⟨j 0, j 1, eq_ix2 j⟩
  have hr : t.val * 5000 + p.val < 100000 := by have := p.isLt; omega
  refine (biasReluMatmul_entry _ _ _ p q).trans ?_
  rw [outBlock_emb_r1 t (ix2 p q) (ix2 ⟨t.val * 5000 + p.val, hr⟩ q) rfl rfl]
  unfold Cert.Bridge.biasReluProd
  rw [Cert.Bridge.matProd_apply]
  refine Finset.sum_congr rfl fun k _ => ?_
  rw [Cert.Bridge.biasRelu_apply, rowBlock_r1 V c t (ix2 p k) (ix2 ⟨t.val * 5000 + p.val, hr⟩ k) rfl rfl,
    biasBlock_r1 V c t (ix1 k), weightBlock_r1 V c t (ix2 k q)]

/-- What point t writes back is block t of relu(a + b) · w. -/
theorem flushed_eq_r1 (c : Dev nD) (t : Fin cfg1.N) :
    (dat1 V c).flushed 3 t = ((cfg1.win 3).blk t).view.read (Elt Ideal)
      (Cert.Bridge.biasReluProd (V c main_v45) (V c main_arg4) (V c main_arg5)) := by
  show (cfg1.win 3).cut (grid1.coords t) ((dat1 V c).after 3 t) = _
  rw [after1_3]
  unfold out1_3
  rw [View.canon_unit_zero zeroPair_r1]
  simp only [View.ld_unit_zero (S := S5000x128) zeroPair_r1, View.ld_unit_zero (S := S128) zeroSingle_r1,
    View.ld_unit_zero (S := S128x128) zeroPair_r1]
  funext j
  exact flushed_entry_r1 V c t j

/-- An index of the array is in point t's output block iff each coordinate is in the block's range on its axis. -/
theorem mem_outBlock_r1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46).slice (win1_3.rect t)).set ↔ _
  rw [View.set_slice_whole, Rect.mem_set_unit]
  exact Iff.rfl

/-- Every index of the array is in some point's output block: row r is in the block of point r / 5000. -/
theorem covered_r1 (i : S100000x128.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [hN]; omega⟩, rfl⟩
  obtain ⟨-, -, -, -, -, e30, e31⟩ := blockIndex_r1 t
  refine ⟨t, flush1_3 t, ?_⟩
  rw [mem_outBlock_r1]
  intro a
  match a with
  | ⟨0, _⟩ => show win1_3.index t (0 : Fin 2) * 5000 ≤ (i 0).val ∧ (i 0).val < win1_3.index t (0 : Fin 2) * 5000 + 5000; rw [e30, ht]; omega
  | ⟨1, _⟩ => show win1_3.index t (1 : Fin 2) * 128 ≤ (i 1).val ∧ (i 1).val < win1_3.index t (1 : Fin 2) * 128 + 128; rw [e31]; omega

/-- The array the region leaves is relu(a + b) · w. -/
theorem region1_array (c : Dev nD) :
    (dat1 (F := Ideal) V c).arrAt 3 cfg1.N = Cert.Bridge.biasReluProd (V c main_v45) (V c main_arg4) (V c main_arg5) :=
  (dat1 V c).arrAt_eq_of_cover 3 (Cert.Bridge.biasReluProd (V c main_v45) (V c main_arg4) (V c main_arg5))
    (fun t _ => flushed_eq_r1 V c t) covered_r1

end Cert.KernelIdeal.Regions

end
-- ==== Proof.KRegion2.lean ====
/-
  The bias-add region, from blocks to the array.

  The region walks a grid of 20 points. At point t it reads rows 5000·t … 5000·t + 4999 of the [100000, 128] matrix a
  (a [5000, 128] block) and the whole length-128 bias b, and writes back one [5000, 128] block of the result at the same
  rows. Entry (p, q) of the block it writes is a[5000·t + p, q] + b[q]: the bias is first viewed as a single row
  [1, 128] and that row is repeated over the 5000 rows of the block, so column q of every row receives b[q].
  An entry of the result therefore depends on the same entry of a and on one entry of b only, and the block written at
  point t is the restriction to its rows of the matrix a + b. Row r of the array lies in the block of point r / 5000,
  so the 20 blocks cover the array, and the array the region leaves is a + b.
-/
import proofs.«138903_j71038759076318_1_alg».proof.Proof.Gen.KernelIdeal.Frame
import proofs.«138903_j71038759076318_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets (0, 0), as the constant-zero function. -/
theorem zeroPair_r2 : (![0, 0] : Fin 2 → Nat) = fun _ => 0 := funext fun a => by fin_cases a <;> rfl
/-- The offset (0), as the constant-zero function. -/
theorem zeroSingle_r2 : (![0] : Fin 1 → Nat) = fun _ => 0 := funext fun a => by fin_cases a <;> rfl

/-- Entry (p, q) of what the body computes from a block x0 and the bias x1: x0[p, q] + x1[q]. The bias becomes the one
    row of a [1, 128] matrix, that row is repeated down the block, and the sum is taken entry by entry. -/
theorem biasAdd_entry (x0 : Vec Ideal S5000x128 .f32) (x1 : Vec Ideal S128 .f32) (p : Fin 5000) (q : Fin 128) :
    k2_pay1 x0 x1 (ix2 p q) = x0 (ix2 p q) + x1 (ix1 q) := by
  unfold k2_pay1
  rw [addf_apply, shapeCast_self, broadcastTo_1b_ab_apply, shapeCast_a_1a_apply]

/-- The block indices over the grid: at point t the matrix windows (input and output) are at block (t, 0), the bias
    window at block 0. -/
theorem blockIndex_r2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

/-- The input block at point t is rows 5000·t … 5000·t + 4999 of the matrix: its entry x is the matrix's entry k
    whenever k's row is 5000·t + x's row and the columns agree. -/
theorem rowBlock_r2 (c : Dev nD) (t : Fin cfg2.N) (x : S5000x128.Idx) (k : S100000x128.Idx)
    (hk0 : (k 0).val = t.val * 5000 + (x 0).val) (hk1 : (k 1).val = (x 1).val) :
    (iblk2 V c 0 t : Vec Ideal S5000x128 .f32) x = (V c main_v59 : S100000x128.Idx → Elt Ideal .f32) k := by
  obtain ⟨e00, e01, -⟩ := blockIndex_r2 t
  unfold iblk2
  rw [View.read_apply]
  show V c main_v59 _ = V c main_v59 _
  congr 1
  funext a
  apply Fin.ext
  match a with
  | ⟨0, _⟩ => show win2_0.index t (0 : Fin 2) * 5000 + 1 * (x 0).val = (k 0).val; rw [e00, hk0]; omega
  | ⟨1, _⟩ => show win2_0.index t (1 : Fin 2) * 128 + 1 * (x 1).val = (k 1).val; rw [e01, hk1]; omega

/-- The bias block at every point is the whole bias. -/
theorem biasBlock_r2 (c : Dev nD) (t : Fin cfg2.N) (x : S128.Idx) :
    (iblk2 V c 1 t : Vec Ideal S128 .f32) x = (V c main_arg6 : S128.Idx → Elt Ideal .f32) x := by
  obtain ⟨-, -, e10, -⟩ := blockIndex_r2 t
  unfold iblk2
  rw [View.read_apply]
  show V c main_arg6 _ = V c main_arg6 _
  congr 1
  funext a
  apply Fin.ext
  match a with
  | ⟨0, _⟩ => show win2_1.index t (0 : Fin 1) * 128 + 1 * (x 0).val = (x 0).val; rw [e10]; omega

/-- Entry x of the output block at point t sits in the array at row 5000·t + x's row, same column. -/
theorem outBlock_emb_r2 (t : Fin cfg2.N) (x : S5000x128.Idx) (k : S100000x128.Idx)
    (hk0 : (k 0).val = t.val * 5000 + (x 0).val) (hk1 : (k 1).val = (x 1).val) :
    ((cfg2.win 2).blk t).view.emb x = k := by
  obtain ⟨-, -, -, e20, e21⟩ := blockIndex_r2 t
  funext a
  apply Fin.ext
  match a with
  | ⟨0, _⟩ => show win2_2.index t (0 : Fin 2) * 5000 + 1 * (x 0).val = (k 0).val; rw [e20, hk0]; omega
  | ⟨1, _⟩ => show win2_2.index t (1 : Fin 2) * 128 + 1 * (x 1).val = (k 1).val; rw [e21, hk1]; omega

/-- Entry j of what the body computes at point t from the blocks it is given is entry (5000·t + p, q) of a + b. -/
theorem flushed_entry_r2 (c : Dev nD) (t : Fin cfg2.N) (j : S5000x128.Idx) :
    k2_pay1 (iblk2 V c 0 t) (iblk2 V c 1 t) j
      = Cert.Bridge.addBias (V c main_v59) (V c main_arg6) (((cfg2.win 2).blk t).view.emb j) := by
  have hN : cfg2.N = 20 := N_2
  have ht : t.val < 20 := hN ▸ t.isLt
  obtain ⟨p, q, rfl⟩ : ∃ (p : Fin 5000) (q : Fin 128), j = ix2 p q := ⟨j 0, j 1, eq_ix2 j⟩
  have hr : t.val * 5000 + p.val < 100000 := by have := p.isLt; omega
  refine (biasAdd_entry _ _ p q).trans ?_
  rw [outBlock_emb_r2 t (ix2 p q) (ix2 ⟨t.val * 5000 + p.val, hr⟩ q) rfl rfl, Cert.Bridge.addBias_apply,
    rowBlock_r2 V c t (ix2 p q) (ix2 ⟨t.val * 5000 + p.val, hr⟩ q) rfl rfl, biasBlock_r2 V c t (ix1 q)]

/-- What point t writes back is block t of a + b. -/
theorem flushed_eq_r2 (c : Dev nD) (t : Fin cfg2.N) :
    (dat2 V c).flushed 2 t = ((cfg2.win 2).blk t).view.read (Elt Ideal) (Cert.Bridge.addBias (V c main_v59) (V c main_arg6)) := by
  show (cfg2.win 2).cut (grid2.coords t) ((dat2 V c).after 2 t) = _
  rw [after2_2]
  unfold out2_2
  rw [View.canon_unit_zero zeroPair_r2]
  simp only [View.ld_unit_zero (S := S5000x128) zeroPair_r2, View.ld_unit_zero (S := S128) zeroSingle_r2]
  funext j
  exact flushed_entry_r2 V c t j

/-- An index of the array is in point t's output block iff each coordinate is in the block's range on its axis. -/
theorem mem_outBlock_r2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v60).slice (win2_2.rect t)).set ↔ _
  rw [View.set_slice_whole, Rect.mem_set_unit]
  exact Iff.rfl

/-- Every index of the array is in some point's output block: row r is in the block of point r / 5000. -/
theorem covered_r2 (i : S100000x128.Idx) : ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, e20, e21⟩ := blockIndex_r2 t
  refine ⟨t, flush2_2 t, ?_⟩
  rw [mem_outBlock_r2]
  intro a
  match a with
  | ⟨0, _⟩ => show win2_2.index t (0 : Fin 2) * 5000 ≤ (i 0).val ∧ (i 0).val < win2_2.index t (0 : Fin 2) * 5000 + 5000; rw [e20, ht]; omega
  | ⟨1, _⟩ => show win2_2.index t (1 : Fin 2) * 128 ≤ (i 1).val ∧ (i 1).val < win2_2.index t (1 : Fin 2) * 128 + 128; rw [e21]; omega

/-- The array the region leaves is a + b. -/
theorem region2_array (c : Dev nD) :
    (dat2 (F := Ideal) V c).arrAt 2 cfg2.N = Cert.Bridge.addBias (V c main_v59) (V c main_arg6) :=
  (dat2 V c).arrAt_eq_of_cover 2 (Cert.Bridge.addBias (V c main_v59) (V c main_arg6)) (fun t _ => flushed_eq_r2 V c t) covered_r2

end Cert.KernelIdeal.Regions

end
-- ==== Proof.Bridge.lean ====
/-
  The two programs leave the same results.

  The tiled program is nine segments; the plain program's one line of operations, cut at the same places, is eight
  pieces (its first piece and second piece together are the tiled program's first three stretches).  Walking the two
  side by side from launch memories that agree on the seven arguments, the buffers that are still to be read hold the
  same contents at every cut:
    * the two endpoint arrays and the edge weights, built by the same host operations from the edge list;
    * after the first region / the first product, the matrix x · W1 (the region's blocks are row blocks of it);
    * after the first message pass, the same aggregate;
    * after the second region / bias, rectifier and second product, the matrix relu(agg1 + b1) · W2;
    * after the second message pass, the same aggregate;
    * after the bias region / the last bias, the node embeddings agg2 + b2;
    * after the per-graph mean, the graph embeddings.
  Buffers not written in between are carried along unchanged on both sides.
-/
import proofs.«138903_j71038759076318_1_alg».proof.Proof.Gen.KernelIdeal.Frame
import proofs.«138903_j71038759076318_1_alg».proof.Proof.Segments
import proofs.«138903_j71038759076318_1_alg».proof.Proof.StretchEndpoints
import proofs.«138903_j71038759076318_1_alg».proof.Proof.StretchWeights
import proofs.«138903_j71038759076318_1_alg».proof.Proof.StretchPass
import proofs.«138903_j71038759076318_1_alg».proof.Proof.StretchPool
import proofs.«138903_j71038759076318_1_alg».proof.Proof.KeepTiled
import proofs.«138903_j71038759076318_1_alg».proof.Proof.KeepPlain
import proofs.«138903_j71038759076318_1_alg».proof.Proof.RefEval
import proofs.«138903_j71038759076318_1_alg».proof.Proof.KRegion0
import proofs.«138903_j71038759076318_1_alg».proof.Proof.KRegion1
import proofs.«138903_j71038759076318_1_alg».proof.Proof.KRegion2

set_option maxRecDepth 16384

noncomputable section

open Idealize.ShloMosaic Idealize.ShloMosaic.TcCoe Idealize.SL.Sem Idealize.ShloMosaic.StableHlo
open Cert.KernelIdeal.Gen (hostOps0 hostOps0_1 hostOps0_2 hostOps1 hostOps2 hostOps3 W0 W1 W2 W3 W4 W5 W6 W7 W8 W9 V3 V5 V7
  W4_arr W4_of_ne W6_arr W6_of_ne W8_arr W8_of_ne)
open Cert.KernelIdeal.Regions (region0_array region1_array region2_array)

namespace Cert.Bridge

variable (m : (ℓ : Loc Cert.KernelIdeal.nD Cert.KernelIdeal.τ Cert.KernelIdeal.sig) → Buf (Elt Ideal) ℓ)
  (ρ : Dev Cert.KernelIdeal.nD → PrngReg)

/-- On core `c`, from a launch memory of the tiled program and launch contents `V'` of the plain program that agree on the
    seven arguments: the tiled program's graph embeddings and node embeddings after its last segment are the plain
    program's after its last operation. -/
theorem results_agree (c : Dev Cert.KernelIdeal.nD) (V' : RV)
    (h0 : W0 m ρ c (Proc.devRef .tc Cert.KernelIdeal.main_arg0) = V' (Proc.devRef .tc Cert.ReferenceIdeal.main_arg0))
    (h1 : W0 m ρ c (Proc.devRef .tc Cert.KernelIdeal.main_arg1) = V' (Proc.devRef .tc Cert.ReferenceIdeal.main_arg1))
    (h2 : W0 m ρ c (Proc.devRef .tc Cert.KernelIdeal.main_arg2) = V' (Proc.devRef .tc Cert.ReferenceIdeal.main_arg2))
    (h3 : W0 m ρ c (Proc.devRef .tc Cert.KernelIdeal.main_arg3) = V' (Proc.devRef .tc Cert.ReferenceIdeal.main_arg3))
    (h4 : W0 m ρ c (Proc.devRef .tc Cert.KernelIdeal.main_arg4) = V' (Proc.devRef .tc Cert.ReferenceIdeal.main_arg4))
    (h5 : W0 m ρ c (Proc.devRef .tc Cert.KernelIdeal.main_arg5) = V' (Proc.devRef .tc Cert.ReferenceIdeal.main_arg5))
    (h6 : W0 m ρ c (Proc.devRef .tc Cert.KernelIdeal.main_arg6) = V' (Proc.devRef .tc Cert.ReferenceIdeal.main_arg6))
    : W9 m ρ c (Proc.devRef .tc Cert.KernelIdeal.main_v72) = after rops V' (Proc.devRef .tc Cert.ReferenceIdeal.main_v78)
      ∧ W9 m ρ c (Proc.devRef .tc Cert.KernelIdeal.main_v60) = after rops V' (Proc.devRef .tc Cert.ReferenceIdeal.main_v66) := by
  -- the endpoint arrays, after the first seven operations of each program
  have hsrc1 : after ((hostOps0 (F := Ideal)).take 7) (W0 m ρ c) (Proc.devRef .tc Cert.KernelIdeal.main_v5) = R1 V' (Proc.devRef .tc Cert.ReferenceIdeal.main_v5) := sources _ _ h1
  have hdst1 : after ((hostOps0 (F := Ideal)).take 7) (W0 m ρ c) (Proc.devRef .tc Cert.KernelIdeal.main_v6) = R1 V' (Proc.devRef .tc Cert.ReferenceIdeal.main_v6) := destinations _ _ h1
  -- the first 43 operations of the tiled program, its first seven split off
  have hW3 : ∀ b, W3 m ρ c b = after (hostOps0_2 (F := Ideal)) (after (hostOps0_1 (F := Ideal))
      (after ((hostOps0 (F := Ideal)).drop 7) (after ((hostOps0 (F := Ideal)).take 7) (W0 m ρ c)))) b := fun b => by
    show after (hostOps0_2 (F := Ideal)) (after (hostOps0_1 (F := Ideal)) (after (hostOps0 (F := Ideal)) (W0 m ρ c))) b = _
    rw [after_split (hostOps0 (F := Ideal)) 7 (W0 m ρ c)]
  -- boundary 3: endpoints, weights and the arguments
  have hnrm3 : W3 m ρ c (Proc.devRef .tc Cert.KernelIdeal.main_v31) = R2 V' (Proc.devRef .tc Cert.ReferenceIdeal.main_v31) := (hW3 _).trans (weights _ _ hsrc1 hdst1)
  have hsrc3 : W3 m ρ c (Proc.devRef .tc Cert.KernelIdeal.main_v5) = R2 V' (Proc.devRef .tc Cert.ReferenceIdeal.main_v5) :=
    (hW3 _).trans ((keepK_weights_v5 _).trans (hsrc1.trans (keepR_weights_v5 _).symm))
  have hdst3 : W3 m ρ c (Proc.devRef .tc Cert.KernelIdeal.main_v6) = R2 V' (Proc.devRef .tc Cert.ReferenceIdeal.main_v6) :=
    (hW3 _).trans ((keepK_weights_v6 _).trans (hdst1.trans (keepR_weights_v6 _).symm))
  have ha0_3 : W3 m ρ c (Proc.devRef .tc Cert.KernelIdeal.main_arg0) = R2 V' (Proc.devRef .tc Cert.ReferenceIdeal.main_arg0) :=
    (keepK_prefix_arg0 (W0 m ρ c)).trans (h0.trans ((keepR_weights_arg0 _).trans (keepR_endpoints_arg0 _)).symm)
  have ha2_3 : W3 m ρ c (Proc.devRef .tc Cert.KernelIdeal.main_arg2) = R2 V' (Proc.devRef .tc Cert.ReferenceIdeal.main_arg2) :=
    (keepK_prefix_arg2 (W0 m ρ c)).trans (h2.trans ((keepR_weights_arg2 _).trans (keepR_endpoints_arg2 _)).symm)
  have ha3_3 : W3 m ρ c (Proc.devRef .tc Cert.KernelIdeal.main_arg3) = R2 V' (Proc.devRef .tc Cert.ReferenceIdeal.main_arg3) :=
    (keepK_prefix_arg3 (W0 m ρ c)).trans (h3.trans ((keepR_weights_arg3 _).trans (keepR_endpoints_arg3 _)).symm)
  have ha4_3 : W3 m ρ c (Proc.devRef .tc Cert.KernelIdeal.main_arg4) = R2 V' (Proc.devRef .tc Cert.ReferenceIdeal.main_arg4) :=
    (keepK_prefix_arg4 (W0 m ρ c)).trans (h4.trans ((keepR_weights_arg4 _).trans (keepR_endpoints_arg4 _)).symm)
  have ha5_3 : W3 m ρ c (Proc.devRef .tc Cert.KernelIdeal.main_arg5) = R2 V' (Proc.devRef .tc Cert.ReferenceIdeal.main_arg5) :=
    (keepK_prefix_arg5 (W0 m ρ c)).trans (h5.trans ((keepR_weights_arg5 _).trans (keepR_endpoints_arg5 _)).symm)
  have ha6_3 : W3 m ρ c (Proc.devRef .tc Cert.KernelIdeal.main_arg6) = R2 V' (Proc.devRef .tc Cert.ReferenceIdeal.main_arg6) :=
    (keepK_prefix_arg6 (W0 m ρ c)).trans (h6.trans ((keepR_weights_arg6 _).trans (keepR_endpoints_arg6 _)).symm)
  -- boundary 4: the first product; the rest carried over the region
  have hprod4 : W4 m ρ c (Proc.devRef .tc Cert.KernelIdeal.main_v32) = R3 V' (Proc.devRef .tc Cert.ReferenceIdeal.main_v32) := by
    refine (W4_arr m ρ c 2).trans ((region0_array (V3 m ρ) c).trans ?_)
    show Cert.Bridge.matProd (W3 m ρ c (Proc.devRef .tc Cert.KernelIdeal.main_arg0)) (W3 m ρ c (Proc.devRef .tc Cert.KernelIdeal.main_arg3)) = after ((rops.drop 43).take 1) (R2 V') (Proc.devRef .tc Cert.ReferenceIdeal.main_v32)
    rw [evalR_prod, ha0_3, ha3_3]
  have hsrc_4 : W4 m ρ c (Proc.devRef .tc Cert.KernelIdeal.main_v5) = R3 V' (Proc.devRef .tc Cert.ReferenceIdeal.main_v5) :=
    (W4_of_ne m ρ c Cert.KernelIdeal.main_v5 (by decide)).trans (hsrc3.trans (keepR_prod_v5 _).symm)
  have hdst_4 : W4 m ρ c (Proc.devRef .tc Cert.KernelIdeal.main_v6) = R3 V' (Proc.devRef .tc Cert.ReferenceIdeal.main_v6) :=
    (W4_of_ne m ρ c Cert.KernelIdeal.main_v6 (by decide)).trans (hdst3.trans (keepR_prod_v6 _).symm)
  have hnrm_4 : W4 m ρ c (Proc.devRef .tc Cert.KernelIdeal.main_v31) = R3 V' (Proc.devRef .tc Cert.ReferenceIdeal.main_v31) :=
    (W4_of_ne m ρ c Cert.KernelIdeal.main_v31 (by decide)).trans (hnrm3.trans (keepR_prod_v31 _).symm)
  have ha2_4 : W4 m ρ c (Proc.devRef .tc Cert.KernelIdeal.main_arg2) = R3 V' (Proc.devRef .tc Cert.ReferenceIdeal.main_arg2) :=
    (W4_of_ne m ρ c Cert.KernelIdeal.main_arg2 (by decide)).trans (ha2_3.trans (keepR_prod_arg2 _).symm)
  have ha4_4 : W4 m ρ c (Proc.devRef .tc Cert.KernelIdeal.main_arg4) = R3 V' (Proc.devRef .tc Cert.ReferenceIdeal.main_arg4) :=
    (W4_of_ne m ρ c Cert.KernelIdeal.main_arg4 (by decide)).trans (ha4_3.trans (keepR_prod_arg4 _).symm)
  have ha5_4 : W4 m ρ c (Proc.devRef .tc Cert.KernelIdeal.main_arg5) = R3 V' (Proc.devRef .tc Cert.ReferenceIdeal.main_arg5) :=
    (W4_of_ne m ρ c Cert.KernelIdeal.main_arg5 (by decide)).trans (ha5_3.trans (keepR_prod_arg5 _).symm)
  have ha6_4 : W4 m ρ c (Proc.devRef .tc Cert.KernelIdeal.main_arg6) = R3 V' (Proc.devRef .tc Cert.ReferenceIdeal.main_arg6) :=
    (W4_of_ne m ρ c Cert.KernelIdeal.main_arg6 (by decide)).trans (ha6_3.trans (keepR_prod_arg6 _).symm)
  -- boundary 5: the first message pass
  have hagg5 : W5 m ρ c (Proc.devRef .tc Cert.KernelIdeal.main_v45) = R4 V' (Proc.devRef .tc Cert.ReferenceIdeal.main_v45) := pass1 (W4 m ρ c) (R3 V') hprod4 hsrc_4 hdst_4 hnrm_4
  have hsrc_5 : W5 m ρ c (Proc.devRef .tc Cert.KernelIdeal.main_v5) = R4 V' (Proc.devRef .tc Cert.ReferenceIdeal.main_v5) :=
    (keepK_pass1_v5 (W4 m ρ c)).trans (hsrc_4.trans (keepR_pass1_v5 _).symm)
  have hdst_5 : W5 m ρ c (Proc.devRef .tc Cert.KernelIdeal.main_v6) = R4 V' (Proc.devRef .tc Cert.ReferenceIdeal.main_v6) :=
    (keepK_pass1_v6 (W4 m ρ c)).trans (hdst_4.trans (keepR_pass1_v6 _).symm)
  have hnrm_5 : W5 m ρ c (Proc.devRef .tc Cert.KernelIdeal.main_v31) = R4 V' (Proc.devRef .tc Cert.ReferenceIdeal.main_v31) :=
    (keepK_pass1_v31 (W4 m ρ c)).trans (hnrm_4.trans (keepR_pass1_v31 _).symm)
  have ha2_5 : W5 m ρ c (Proc.devRef .tc Cert.KernelIdeal.main_arg2) = R4 V' (Proc.devRef .tc Cert.ReferenceIdeal.main_arg2) :=
    (keepK_pass1_arg2 (W4 m ρ c)).trans (ha2_4.trans (keepR_pass1_arg2 _).symm)
  have ha4_5 : W5 m ρ c (Proc.devRef .tc Cert.KernelIdeal.main_arg4) = R4 V' (Proc.devRef .tc Cert.ReferenceIdeal.main_arg4) :=
    (keepK_pass1_arg4 (W4 m ρ c)).trans (ha4_4.trans (keepR_pass1_arg4 _).symm)
  have ha5_5 : W5 m ρ c (Proc.devRef .tc Cert.KernelIdeal.main_arg5) = R4 V' (Proc.devRef .tc Cert.ReferenceIdeal.main_arg5) :=
    (keepK_pass1_arg5 (W4 m ρ c)).trans (ha5_4.trans (keepR_pass1_arg5 _).symm)
  have ha6_5 : W5 m ρ c (Proc.devRef .tc Cert.KernelIdeal.main_arg6) = R4 V' (Proc.devRef .tc Cert.ReferenceIdeal.main_arg6) :=
    (keepK_pass1_arg6 (W4 m ρ c)).trans (ha6_4.trans (keepR_pass1_arg6 _).symm)
  -- boundary 6: bias, rectifier and the second product
  have hlay6 : W6 m ρ c (Proc.devRef .tc Cert.KernelIdeal.main_v46) = R5 V' (Proc.devRef .tc Cert.ReferenceIdeal.main_v50) := by
    refine (W6_arr m ρ c 3).trans ((region1_array (V5 m ρ) c).trans ?_)
    show Cert.Bridge.biasReluProd (W5 m ρ c (Proc.devRef .tc Cert.KernelIdeal.main_v45)) (W5 m ρ c (Proc.devRef .tc Cert.KernelIdeal.main_arg4)) (W5 m ρ c (Proc.devRef .tc Cert.KernelIdeal.main_arg5))
      = after ((rops.drop 60).take 7) (R4 V') (Proc.devRef .tc Cert.ReferenceIdeal.main_v50)
    rw [evalR_layer, hagg5, ha4_5, ha5_5]
  have hsrc_6 : W6 m ρ c (Proc.devRef .tc Cert.KernelIdeal.main_v5) = R5 V' (Proc.devRef .tc Cert.ReferenceIdeal.main_v5) :=
    (W6_of_ne m ρ c Cert.KernelIdeal.main_v5 (by decide)).trans (hsrc_5.trans (keepR_layer_v5 _).symm)
  have hdst_6 : W6 m ρ c (Proc.devRef .tc Cert.KernelIdeal.main_v6) = R5 V' (Proc.devRef .tc Cert.ReferenceIdeal.main_v6) :=
    (W6_of_ne m ρ c Cert.KernelIdeal.main_v6 (by decide)).trans (hdst_5.trans (keepR_layer_v6 _).symm)
  have hnrm_6 : W6 m ρ c (Proc.devRef .tc Cert.KernelIdeal.main_v31) = R5 V' (Proc.devRef .tc Cert.ReferenceIdeal.main_v31) :=
    (W6_of_ne m ρ c Cert.KernelIdeal.main_v31 (by decide)).trans (hnrm_5.trans (keepR_layer_v31 _).symm)
  have ha2_6 : W6 m ρ c (Proc.devRef .tc Cert.KernelIdeal.main_arg2) = R5 V' (Proc.devRef .tc Cert.ReferenceIdeal.main_arg2) :=
    (W6_of_ne m ρ c Cert.KernelIdeal.main_arg2 (by decide)).trans (ha2_5.trans (keepR_layer_arg2 _).symm)
  have ha6_6 : W6 m ρ c (Proc.devRef .tc Cert.KernelIdeal.main_arg6) = R5 V' (Proc.devRef .tc Cert.ReferenceIdeal.main_arg6) :=
    (W6_of_ne m ρ c Cert.KernelIdeal.main_arg6 (by decide)).trans (ha6_5.trans (keepR_layer_arg6 _).symm)
  -- boundary 7: the second message pass
  have hagg7 : W7 m ρ c (Proc.devRef .tc Cert.KernelIdeal.main_v59) = R6 V' (Proc.devRef .tc Cert.ReferenceIdeal.main_v63) := pass2 (W6 m ρ c) (R5 V') hlay6 hsrc_6 hdst_6 hnrm_6
  have ha2_7 : W7 m ρ c (Proc.devRef .tc Cert.KernelIdeal.main_arg2) = R6 V' (Proc.devRef .tc Cert.ReferenceIdeal.main_arg2) :=
    (keepK_pass2_arg2 (W6 m ρ c)).trans (ha2_6.trans (keepR_pass2_arg2 _).symm)
  have ha6_7 : W7 m ρ c (Proc.devRef .tc Cert.KernelIdeal.main_arg6) = R6 V' (Proc.devRef .tc Cert.ReferenceIdeal.main_arg6) :=
    (keepK_pass2_arg6 (W6 m ρ c)).trans (ha6_6.trans (keepR_pass2_arg6 _).symm)
  -- boundary 8: the last bias
  have hout8 : W8 m ρ c (Proc.devRef .tc Cert.KernelIdeal.main_v60) = R7 V' (Proc.devRef .tc Cert.ReferenceIdeal.main_v66) := by
    refine (W8_arr m ρ c 2).trans ((region2_array (V7 m ρ) c).trans ?_)
    show Cert.Bridge.addBias (W7 m ρ c (Proc.devRef .tc Cert.KernelIdeal.main_v59)) (W7 m ρ c (Proc.devRef .tc Cert.KernelIdeal.main_arg6)) = after ((rops.drop 83).take 3) (R6 V') (Proc.devRef .tc Cert.ReferenceIdeal.main_v66)
    rw [evalR_bias, hagg7, ha6_7]
  have ha2_8 : W8 m ρ c (Proc.devRef .tc Cert.KernelIdeal.main_arg2) = R7 V' (Proc.devRef .tc Cert.ReferenceIdeal.main_arg2) :=
    (W8_of_ne m ρ c Cert.KernelIdeal.main_arg2 (by decide)).trans (ha2_7.trans (keepR_bias_arg2 _).symm)
  -- boundary 9: the per-graph mean, and the node embeddings carried through it
  have hemb9 : W9 m ρ c (Proc.devRef .tc Cert.KernelIdeal.main_v72) = R8 V' (Proc.devRef .tc Cert.ReferenceIdeal.main_v78) := pool (W8 m ρ c) (R7 V') hout8 ha2_8
  have hout9 : W9 m ρ c (Proc.devRef .tc Cert.KernelIdeal.main_v60) = R8 V' (Proc.devRef .tc Cert.ReferenceIdeal.main_v66) :=
    (keepK_pool_v60 (W8 m ρ c)).trans (hout8.trans (keepR_pool_v66 _).symm)
  exact ⟨hemb9.trans (congrFun (after_rops V') _).symm, hout9.trans (congrFun (after_rops V') _).symm⟩

end Cert.Bridge

end
-- ==== Proof.lean ====
/-
  A two-layer graph convolution with a per-graph mean, tiled, against the plain one.

  With N = 100000 nodes, D = 128 features and 1.6 million edges, both programs compute, from the node features x, the
  edge list, the graph id of every node and the weights W1, b1, W2, b2:
      agg1 = pass(x · W1),   agg2 = pass(relu(agg1 + b1) · W2),   out = agg2 + b2,   emb = per-graph mean of out,
  where pass gathers each edge's source row, scales it by the edge weight d[src]·d[dst] (d the reciprocal square root of
  the in-degree, self-loops added) and adds it into the destination row.  The plain program does all of it with host
  operations.  The tiled program does the three dense steps — x · W1, relu(agg1 + b1) · W2 and agg2 + b2 — each in a
  region that walks 20 blocks of 5000 rows, with the weight matrices narrowed to a shorter float format on the way into
  the product; everything between the regions is the plain program's own operations.

  Over the extended reals the narrowing is the identity, a product accumulated into zero is the exact sum over the
  contracted axis, and every one of the three dense steps acts on each row separately, so the blocks a region writes are
  the row blocks of the plain program's matrix (Proof/KRegion0.lean, KRegion1.lean, KRegion2.lean against
  Proof/RefDense.lean, both stated through Proof/Spec.lean).  No sum is re-associated across rows and no factor is moved
  across a sum, so no finiteness of the inputs is used.  The host operations around the regions are the same in both
  programs and are never opened: from equal contents going in they give equal contents coming out
  (Proof/StretchEndpoints.lean, StretchWeights.lean, StretchPass.lean, StretchPool.lean), and Proof/Bridge.lean walks
  the two programs side by side from the launch to the results.

  The frames of the two tiled programs are the generated ones; the plain program's frame is its run (Proof/RefRun.lean)
  with the results dropped; the idealization rewrote nothing, so there is nothing to preserve.
-/
import proofs.«138903_j71038759076318_1_alg».proof.Defs
import proofs.«138903_j71038759076318_1_alg».proof.Proof.Gen.Kernel
import proofs.«138903_j71038759076318_1_alg».proof.Proof.Gen.Kernel.Skeleton
import proofs.«138903_j71038759076318_1_alg».proof.Proof.Gen.Kernel.Launch
import proofs.«138903_j71038759076318_1_alg».proof.Proof.Gen.Kernel.Points
import proofs.«138903_j71038759076318_1_alg».proof.Proof.Gen.Kernel.Frame
import proofs.«138903_j71038759076318_1_alg».proof.Proof.Gen.KernelIdeal
import proofs.«138903_j71038759076318_1_alg».proof.Proof.Gen.KernelIdeal.Skeleton
import proofs.«138903_j71038759076318_1_alg».proof.Proof.Gen.KernelIdeal.Launch
import proofs.«138903_j71038759076318_1_alg».proof.Proof.Gen.KernelIdeal.Points
import proofs.«138903_j71038759076318_1_alg».proof.Proof.Gen.KernelIdeal.Frame
import proofs.«138903_j71038759076318_1_alg».proof.Proof.Gen.ReferenceIdeal
import proofs.«138903_j71038759076318_1_alg».proof.Proof.Gen.Pre_finite_inputs
import proofs.«138903_j71038759076318_1_alg».proof.Proof.KRun
import proofs.«138903_j71038759076318_1_alg».proof.Proof.RefRun
import proofs.«138903_j71038759076318_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The word-level tiled program runs and leaves its arguments as launched. -/
theorem frame_k : Cert.frame_Kernel := fun m ρ _ => Cert.Kernel.Gen.frame m ρ

/-- The idealized tiled program runs and leaves its arguments as launched. -/
theorem frame_ki : Cert.frame_KernelIdeal := fun m ρ _ => Cert.KernelIdeal.Gen.frame m ρ

/-- The plain program runs and leaves its arguments as launched: its run, the two results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- The idealization rewrote no operation. -/
theorem preserves : Cert.preserves_Kernel_KernelIdeal := trivial

/-- From launch memories that agree on the seven arguments both programs terminate with the same graph embeddings and
    the same node embeddings, entry by entry, and with their arguments unchanged. -/
theorem algebraic : Cert.algebraic_KernelIdeal_ReferenceIdeal := by
  intro m ρ m' ρ' _ hagree
  refine ⟨fun c => Cert.KernelIdeal.Gen.W9 m ρ c (Proc.devRef .tc Cert.KernelIdeal.main_v72),
    fun c => Cert.KernelIdeal.Gen.W9 m ρ c (Proc.devRef .tc Cert.KernelIdeal.main_v60), ?_, ?_⟩
  · refine (θ_run Cert.KernelIdeal.defs _ _).mono (fun r h c => ?_) (Cert.KernelIdeal.Whole.run_all (F := Ideal) m ρ)
    exact ⟨h c _ (Cert.KernelIdeal.Gen.mem_uc Cert.KernelIdeal.main_v72 (by decide)),
      h c _ (Cert.KernelIdeal.Gen.mem_uc Cert.KernelIdeal.main_v60 (by decide)),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c),
      (h c _ (Cert.KernelIdeal.Gen.mem_uc Cert.KernelIdeal.main_arg6 (by decide))).trans (Cert.KernelIdeal.Gen.W9_main_arg6 m ρ c)⟩
  · refine (θ_run Cert.ReferenceIdeal.defs _ _).mono (fun r h c => ?_) (Cert.ReferenceIdeal.RunP.run (F := Ideal) m' ρ')
    obtain ⟨e0, e1, e2, e3, e4, e5, e6⟩ := hagree c
    have hb := Cert.Bridge.results_agree m ρ c (launchContents m' c) e0.symm e1.symm e2.symm e3.symm e4.symm e5.symm e6.symm
    exact ⟨(h c).1.trans hb.1.symm, (h c).2.1.trans hb.2.symm, (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
